-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg16 : FVec F S128 .f32) (main_arg17 : FVec F S64x128 .f32) (main_arg18 : FVec F S64x128 .f32) (main_arg19 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg17
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64x128 .f32 := Host.absf main_arg18
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S64x128 .f32) (main_arg18 : FVec F S64x128 .f32) (main_arg19 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S64x128 .f32) (main_arg18 : FVec F S64x128 .f32) (main_arg19 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S64x128 .f32) (main_arg18 : FVec F S64x128 .f32) (main_arg19 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S64x128 .f32) (main_arg18 : FVec F S64x128 .f32) (main_arg19 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩
abbrev S128x64 : Shape := ⟨2, ![128, 64]⟩
abbrev S2000 : Shape := ⟨1, ![2000]⟩
abbrev S2000x1 : Shape := ⟨2, ![2000, 1]⟩

abbrev nBuf : Space → Nat
  | .hbm => 92
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S64x128, .f32⟩
  | .hbm, ⟨18, _⟩ => ⟨S64x128, .f32⟩
  | .hbm, ⟨19, _⟩ => ⟨S64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x64, .f32⟩
  | .hbm, ⟨91, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S64x128, .f32⟩
  | .local _ .vmem, ⟨31, _⟩ => ⟨S64x128, .f32⟩
  | .local _ .vmem, ⟨32, _⟩ => ⟨S1x64, .f32⟩
  | .local _ .vmem, ⟨33, _⟩ => ⟨S2000x64, .f32⟩
  | .local _ .vmem, ⟨34, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c : Ref sig .tc := ⟨.hbm, 33, rfl⟩
abbrev main_v9 : Ref sig .tc := ⟨.hbm, 34, rfl⟩
abbrev main_v10 : Ref sig .tc := ⟨.hbm, 35, rfl⟩
abbrev main_c_3 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 172
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S64x128, .f32⟩
  | 18 => ⟨S64x128, .f32⟩
  | 19 => ⟨S64, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S128x128, .f32⟩
  | 46 => ⟨S100000x128, .f32⟩
  | 47 => ⟨S1x128, .f32⟩
  | 48 => ⟨S100000x128, .f32⟩
  | 49 => ⟨S100000x128, .f32⟩
  | 50 => ⟨S128x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S_, .f32⟩
  | 86 => ⟨S1600000, .f32⟩
  | 87 => ⟨S_, .f32⟩
  | 88 => ⟨S100000, .f32⟩
  | 89 => ⟨S1600000x1, .i32⟩
  | 90 => ⟨S100000, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S128x128, .f32⟩
  | 98 => ⟨S100000x128, .f32⟩
  | 99 => ⟨S1x128, .f32⟩
  | 100 => ⟨S100000x128, .f32⟩
  | 101 => ⟨S100000x128, .f32⟩
  | 102 => ⟨S128x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S128, .f32⟩
  | 110 => ⟨S128, .f32⟩
  | 111 => ⟨S128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x128, .f32⟩
  | 20 => ⟨S100000x128, .f32⟩
  | 21 => ⟨S128x64, .f32⟩
  | 22 => ⟨S100000x64, .f32⟩
  | 23 => ⟨S1x64, .f32⟩
  | 24 => ⟨S100000x64, .f32⟩
  | 25 => ⟨S100000x64, .f32⟩
  | 26 => ⟨S128x64, .f32⟩
  | 27 => ⟨S100000x64, .f32⟩
  | 28 => ⟨S100000x64, .f32⟩
  | 29 => ⟨S_, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x64, .f32⟩
  | 36 => ⟨S100000x64, .f32⟩
  | 37 => ⟨S100000x64, .f32⟩
  | 38 => ⟨S_, .f32⟩
  | 39 => ⟨S100000, .f32⟩
  | 40 => ⟨S100000x1, .f32⟩
  | 41 => ⟨S100000x1, .f32⟩
  | 42 => ⟨S100000x64, .f32⟩
  | 43 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call0_cst : Ref sig .tc := ⟨.hbm, 69, rfl⟩
abbrev main_call0_v0 : Ref sig .tc := ⟨.hbm, 70, rfl⟩
abbrev main_v42 : Ref sig .tc := ⟨.hbm, 71, rfl⟩
abbrev main_c_5 : Ref sig .tc := ⟨.hbm, 72, rfl⟩
abbrev main_v43 : Ref sig .tc := ⟨.hbm, 73, rfl⟩
abbrev main_v44 : Ref sig .tc := ⟨.hbm, 74, rfl⟩
abbrev main_c_6 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_7 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call1_cst : Ref sig .tc := ⟨.hbm, 121, rfl⟩
abbrev main_call1_v0 : Ref sig .tc := ⟨.hbm, 122, rfl⟩
abbrev main_v85 : Ref sig .tc := ⟨.hbm, 123, rfl⟩
abbrev main_c_12 : Ref sig .tc := ⟨.hbm, 124, rfl⟩
abbrev main_v86 : Ref sig .tc := ⟨.hbm, 125, rfl⟩
abbrev main_v87 : Ref sig .tc := ⟨.hbm, 126, rfl⟩
abbrev main_c_13 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_14 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_15 : Ref sig .tc := ⟨.hbm, 137, rfl⟩
abbrev main_v96 : Ref sig .tc := ⟨.hbm, 138, rfl⟩
abbrev main_cst_16 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_17 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_call2_cst : Ref sig .tc := ⟨.hbm, 157, rfl⟩
abbrev main_call2_v0 : Ref sig .tc := ⟨.hbm, 158, rfl⟩
abbrev main_call2_cst_0 : Ref sig .tc := ⟨.hbm, 159, rfl⟩
abbrev main_call2_v1 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_v5 : Ref sig .tc := ⟨.hbm, 164, rfl⟩
abbrev main_call2_v6 : Ref sig .tc := ⟨.hbm, 165, rfl⟩
abbrev main_call2_cst_1 : Ref sig .tc := ⟨.hbm, 166, rfl⟩
abbrev main_call2_v7 : Ref sig .tc := ⟨.hbm, 167, rfl⟩
abbrev main_call2_v8 : Ref sig .tc := ⟨.hbm, 168, rfl⟩
abbrev main_call2_v9 : Ref sig .tc := ⟨.hbm, 169, rfl⟩
abbrev main_call2_v10 : Ref sig .tc := ⟨.hbm, 170, rfl⟩
abbrev main_v113 : Ref sig .tc := ⟨.hbm, 171, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run, with the result kept.

  @main is six segments: a stretch of host operations, the first hidden layer's kernel, a second stretch, the second
  hidden layer's kernel, a third stretch, the classifier's kernel.  The buffer contents at the six boundaries are a
  fold from the launch memory: a host stretch applies its operations, a kernel leaves each of its arrays at what its
  write-backs fold to and every other buffer as entered.  Every weakly fair execution terminates with every unscoped
  buffer at the last boundary's contents; the network's result is the classifier kernel's output array there, and the
  twenty arguments are read back through the fold to the launch memory.
-/
import proofs.«140391_j1838246003329_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in every final state each unscoped buffer of each core holds
    the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array ends at what the classifier kernel's write-backs fold to, and the twenty arguments end as
    launched. -/
theorem run_result : θ_run defs (onTc (τ := τ) (main (F := F))) ⟨m, fun _ => 0, ρ⟩ (fun r => ∀ c : Dev nD,
      r.2.mem ((c.tc : Thread nD τ).loc main_v58) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_v58 (by decide))).trans (W6_arr m ρ c 5),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c),
      (h c _ (mem_uc main_arg17 (by decide))).trans (W6_main_arg17 m ρ c),
      (h c _ (mem_uc main_arg18 (by decide))).trans (W6_main_arg18 m ρ c),
      (h c _ (mem_uc main_arg19 (by decide))).trans (W6_main_arg19 m ρ c)⟩)
    (run_boundary m ρ)

end Cert.Sage.KRun

end
-- ==== Proof.Spec.lean ====
/-
  The mathematics of the three-layer neighbourhood-averaging network, on the extended reals.

  A node's AGGREGATE is the sum of its in-neighbours' feature rows divided by max(in-degree, 1).  A HIDDEN layer takes,
  for node r and output feature j,
      y = Σ_k agg[r,k]·Wl[j,k] + Σ_k h[r,k]·Wr[j,k] + b[j],
  normalises it by running statistics, ((y − rm[j]) · (rv[j] + ε)^(-1/2)) · g[j] + be[j], and clips it at 0.  The LAST
  layer takes the same affine y over 64 classes and returns the row's log-softmax, (y_j − M) − log Σ_j' exp(y_j' − M)
  with M the row's maximum.

  Two scalar facts are all that separates the two programs' formulas:
    · a product with the reciprocal 1/d is the quotient by d, for every extended real numerator, as soon as d ≠ 0 —
      and d = max(degree, 1) is at least 1;
    · the three summands of y may be added in either order (addition of extended reals is commutative and associative).
  Neither needs a finite input.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-! ## Scalars -/

/-- The batch norm's ε, as the single-precision word both programs carry (never evaluated: it is the same word on
    both sides). -/
abbrev eps : EReal := Ideal.ofBits .f32 0x3727C5AC#32

/-- −∞, as the word both programs start their row maximum from. -/
abbrev negInf : EReal := Ideal.ofBits .f32 0xFF800000#32

/-- The product with the reciprocal of a nonzero extended real is the quotient by it. -/
theorem mul_recip_eq_div (s d : EReal) (hd : d ≠ 0) : s * Ideal.div 1 d = Ideal.div s d := by
  unfold Ideal.div
  rw [if_neg hd, if_neg hd, one_mul]

/-- A maximum with 1 is not 0. -/
theorem max_one_ne_zero (x : EReal) : max x 1 ≠ 0 := by
  intro h
  have h1 : (1 : EReal) ≤ max x 1 := le_max_right _ _
  rw [h] at h1
  exact absurd h1 (not_le.mpr zero_lt_one)

/-- The mean over the in-neighbours, the kernel's way (times the reciprocal) and the reference's (divided by). -/
theorem mean_forms (s deg : EReal) : s * Ideal.div 1 (max deg 1) = Ideal.div s (max deg 1) :=
  mul_recip_eq_div s _ (max_one_ne_zero deg)

/-! ## One output entry -/

/-- The affine part at one output entry: the aggregated row against a row of the neighbour weights, the node's own
    row against a row of the self weights, and the bias. -/
def lin {K : ℕ} (a h wl wr : Fin K → EReal) (b : EReal) : EReal :=
  (∑ k, a k * wl k) + (∑ k, h k * wr k) + b

/-- The reference adds the bias before the self term. -/
theorem lin_bias_first {K : ℕ} (a h wl wr : Fin K → EReal) (b : EReal) :
    (∑ k, a k * wl k) + b + (∑ k, h k * wr k) = lin a h wl wr b := by
  unfold lin; exact add_right_comm _ _ _

/-- Normalisation by running statistics, scale and shift, then the rectifier. -/
def bnrelu (y rm rv g be : EReal) : EReal :=
  max ((y - rm) * Ideal.rsqrt (rv + eps) * g + be) 0

/-- A row's maximum, folded from −∞. -/
def rowmax {J : ℕ} (y : Fin J → EReal) : EReal := (Finset.univ : Finset (Fin J)).fold max negInf y

/-- Taking the maximum with −∞ once more changes nothing. -/
theorem max_negInf_rowmax {J : ℕ} (y : Fin J → EReal) : max negInf (rowmax y) = rowmax y :=
  max_eq_right ((Finset.le_fold_max _).mpr (Or.inl le_rfl))

/-- The log-softmax of a row at entry j. -/
def lsm {J : ℕ} (y : Fin J → EReal) (j : Fin J) : EReal :=
  (y j - rowmax y) - Ideal.log (∑ j', Ideal.exp (y j' - rowmax y))

/-! ## Whole arrays

  Node features are [100000, 128] (64 classes at the end), weights [out, 128], per-feature vectors [out]. -/

abbrev SNxD : Shape := ⟨2, ![100000, 128]⟩
abbrev SNxO : Shape := ⟨2, ![100000, 64]⟩
abbrev SDxD : Shape := ⟨2, ![128, 128]⟩
abbrev SOxD : Shape := ⟨2, ![64, 128]⟩
abbrev SD : Shape := ⟨1, ![128]⟩
abbrev SO : Shape := ⟨1, ![64]⟩

/-- A hidden layer at node r, feature j. -/
def hiddenAt (A H : SNxD.Idx → EReal) (Wl Wr : SDxD.Idx → EReal) (b g be rm rv : SD.Idx → EReal)
    (r : Fin 100000) (j : Fin 128) : EReal :=
  bnrelu (lin (fun k : Fin 128 => A (ix2 r k)) (fun k : Fin 128 => H (ix2 r k)) (fun k : Fin 128 => Wl (ix2 j k))
      (fun k : Fin 128 => Wr (ix2 j k)) (b (ix1 j)))
    (rm (ix1 j)) (rv (ix1 j)) (g (ix1 j)) (be (ix1 j))

/-- A hidden layer: the aggregate A and the features H of every node to the next features of every node. -/
def hidden (A H : SNxD.Idx → EReal) (Wl Wr : SDxD.Idx → EReal) (b g be rm rv : SD.Idx → EReal) : SNxD.Idx → EReal :=
  fun i => hiddenAt A H Wl Wr b g be rm rv (i 0) (i 1)

/-- The last layer's affine part at node r, class j. -/
def logitAt (A H : SNxD.Idx → EReal) (Wl Wr : SOxD.Idx → EReal) (b : SO.Idx → EReal) (r : Fin 100000) (j : Fin 64) : EReal :=
  lin (fun k : Fin 128 => A (ix2 r k)) (fun k : Fin 128 => H (ix2 r k)) (fun k : Fin 128 => Wl (ix2 j k))
    (fun k : Fin 128 => Wr (ix2 j k)) (b (ix1 j))

/-- The last layer: log-softmax over the 64 classes of every node. -/
def classify (A H : SNxD.Idx → EReal) (Wl Wr : SOxD.Idx → EReal) (b : SO.Idx → EReal) : SNxO.Idx → EReal :=
  fun i => lsm (fun j : Fin 64 => logitAt A H Wl Wr b (i 0) j) (i 1)

end Cert.Sage

end
-- ==== Proof.KBody.lean ====
/-
  The three bodies of the network's layers, each read at one entry of the block of rows it writes.

  A body sees a block of 2000 node rows: the rows' aggregates A and features H (each 2000 × 128), the two weight
  matrices Wl, Wr (out × 128, one ROW per output feature), and per-feature row vectors (1 × out).  Entry (p, q) of
  what a hidden body writes depends on row p of A and of H, on row q of Wl and of Wr, and on entry q of the bias,
  the running mean and variance, the scale and the shift:
      max( ((Σ_k A[p,k]·Wl[q,k] + Σ_k H[p,k]·Wr[q,k] + b[q]) − rm[q]) · (rv[q] + ε)^(-1/2) · g[q] + be[q], 0 ).
  Entry (p, q) of what the last body writes depends on rows p of A and H and on ALL 64 rows of the weights and the
  bias: with y_j = Σ_k A[p,k]·Wl[j,k] + Σ_k H[p,k]·Wr[j,k] + b[j] it is (y_q − M) − log Σ_j exp(y_j − M), M the
  maximum of the y_j taken from −∞.

  What is used: a product of a block with a TRANSPOSED weight matrix, accumulated from zero, is at (p, q) the sum
  over k of block[p,k] · weights[q,k] (the transpose swaps the two coordinates of the weights); rounding the
  operands to a shorter format is the identity on extended reals; a row vector spread over the rows reads its
  entry of the column; a maximum (a sum) along a row, kept as a column and spread back over the row, reads at
  every entry of the row the row's maximum (sum).  No law of arithmetic beyond these readings is needed: the two
  sides are then the same expression.
-/
import proofs.«140391_j1838246003329_1_alg».proof.Proof.Gen.KernelIdeal.Frame
import proofs.«140391_j1838246003329_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Sage.Body

open Idealize.ShloMosaic Cert.KernelIdeal Cert.KernelIdeal.Gen Idealize.ShloMosaic.ValueIdx

/-! ## Readings shared by the three bodies -/

/-- The offsets of a whole-block access are all zero. -/
theorem offsets_zero : (![0, 0] : Fin 2 → Nat) = fun _ => 0 := by
  funext a; match a with | ⟨0, _⟩ => rfl | ⟨1, _⟩ => rfl

/-- A reciprocal square root, entry by entry. -/
theorem rsqrt_apply {s : Shape} {φ : FTy} (a : FVec Ideal s φ) (i : s.Idx) :
    Idealize.ShloMosaic.rsqrt a i = Ideal.rsqrt (a i) := rfl
/-- An exponential, entry by entry. -/
theorem exp_apply {s : Shape} {φ : FTy} (a : FVec Ideal s φ) (i : s.Idx) :
    Idealize.ShloMosaic.exp a i = Ideal.exp (a i) := rfl
/-- A logarithm, entry by entry. -/
theorem log_apply {s : Shape} {φ : FTy} (a : FVec Ideal s φ) (i : s.Idx) :
    Idealize.ShloMosaic.log a i = Ideal.log (a i) := rfl

/-! ## A hidden layer's product: a [2000, 128] block against a [128, 128] matrix -/

/-- The left operand is read in the output's row. -/
theorem dotH_lhs_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand is read in the output's column. -/
theorem dotH_rhs_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product accumulated from zero, at (p, q): the sum over k of a[p,k] · b[k,q]. -/
theorem productH_apply {φ₁ φ₂ : FTy} (a : FVec Ideal S2000x128 φ₁) (b : FVec Ideal S128x128 φ₂) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun d => Fin.ext (by
      match d with
      | ⟨0, _⟩ => exact dotH_lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun d => Fin.ext (by
      match d with
      | ⟨0, _⟩ => exact (dot_S2000x128_S128x128_S2000x128_1_0_0_1_n_n.rhsIdx_val_of_single rfl _ _).trans hk
      | ⟨1, _⟩ => exact dotH_rhs_col _ _)
  rw [el, er]

/-- Against the TRANSPOSED weights w (one row per output feature): the sum over k of a[p,k] · w[q,k]. -/
theorem productH_weights_apply {φ₁ φ₂ : FTy} (a : FVec Ideal S2000x128 φ₁) (w : FVec Ideal S128x128 φ₂)
    (h : S128x128.Transposes [1, 0] S128x128) (p : Fin 2000) (q : Fin 128) :
    matmul dot_S2000x128_S128x128_S2000x128_1_0_0_1_n_n none a (transpose S128x128 [1, 0] w h)
        (constant S2000x128 .f32 0x00000000#32) (ix2 p q)
      = ∑ k : Fin 128, a (ix2 p k) * w (ix2 q k) := by
  rw [productH_apply]
  exact Finset.sum_congr rfl fun k _ => congrArg (a (ix2 p k) * ·) (transpose_ix2_apply w h k q)

/-! ## The first hidden layer's body -/

/-- Before the rectifier, at (p, q): the affine value of row p against rows q of the weights, normalised by the
    running statistics of feature q, scaled and shifted. -/
theorem normalised0_apply (v0 v3 : Vec Ideal S2000x128 .f32) (v5 v7 : Vec Ideal S128x128 .f32)
    (v14 v18 v23 v29 v33 : Vec Ideal S1x128 .f32) (p : Fin 2000) (q : Fin 128) :
    k0_pay2 (F := Ideal) v0 v3 v5 v7 v14 v18 v23 v29 v33 (ix2 p q)
      = (Cert.Sage.lin (fun k : Fin 128 => v0 (ix2 p k)) (fun k : Fin 128 => v3 (ix2 p k))
            (fun k : Fin 128 => v5 (ix2 q k)) (fun k : Fin 128 => v7 (ix2 q k)) (v14 (ix2 (0 : Fin 1) q))
          - v23 (ix2 (0 : Fin 1) q)) * Ideal.rsqrt (v18 (ix2 (0 : Fin 1) q) + Cert.Sage.eps)
          * v29 (ix2 (0 : Fin 1) q) + v33 (ix2 (0 : Fin 1) q) := by
  unfold k0_pay2
  simp only [addf_apply, subf_apply, mulf_apply, shapeCast_self, broadcastTo_1b_ab_apply, rsqrt_apply,
    broadcast_apply]
  rw [productH_weights_apply, productH_weights_apply]
  simp only [truncf_apply]
  rfl

/-- The rectifier: the maximum with the zero word, which is 0. -/
theorem clipped0_apply (v : FVec Ideal S2000x128 .f32) (i : S2000x128.Idx) :
    k0_pay1 (F := Ideal) v (Scalar.ofBits .f32 0x00000000#32) i = max (v i) 0 := by
  unfold k0_pay1
  simp only [maximumf_apply, broadcast_apply]
  exact congrArg (max (v i)) Ideal.ofBits_zero_f32

/-- The first hidden body at (p, q).  x0 is the block of aggregates, x1 of features, x2 the neighbour weights,
    x3 the self weights, x4 the bias, x5 the scale, x6 the shift, x7 the running mean, x8 the running variance. -/
theorem out0_9_apply (x0 x1 : Vec Ideal S2000x128 .f32) (x2 x3 : Vec Ideal S128x128 .f32)
    (x4 x5 x6 x7 x8 : Vec Ideal S1x128 .f32) (p : Fin 2000) (q : Fin 128) :
    out0_9 (F := Ideal) x0 x1 x2 x3 x4 x5 x6 x7 x8 (ix2 p q)
      = Cert.Sage.bnrelu (Cert.Sage.lin (fun k : Fin 128 => x0 (ix2 p k)) (fun k : Fin 128 => x1 (ix2 p k))
            (fun k : Fin 128 => x2 (ix2 q k)) (fun k : Fin 128 => x3 (ix2 q k)) (x4 (ix2 (0 : Fin 1) q)))
          (x7 (ix2 (0 : Fin 1) q)) (x8 (ix2 (0 : Fin 1) q)) (x5 (ix2 (0 : Fin 1) q)) (x6 (ix2 (0 : Fin 1) q)) := by
  unfold out0_9
  rw [View.canon_unit_zero offsets_zero]
  simp only [View.ld_unit_zero (S := S2000x128) offsets_zero, View.ld_unit_zero (S := S128x128) offsets_zero,
    View.ld_unit_zero (S := S1x128) offsets_zero]
  rw [clipped0_apply, normalised0_apply]
  rfl

/-! ## The second hidden layer's body: the same arithmetic -/

/-- Before the rectifier, at (p, q). -/
theorem normalised1_apply (v0 v3 : Vec Ideal S2000x128 .f32) (v6 v8 : Vec Ideal S128x128 .f32)
    (v15 v19 v24 v30 v34 : Vec Ideal S1x128 .f32) (p : Fin 2000) (q : Fin 128) :
    k1_pay2 (F := Ideal) v0 v3 v6 v8 v15 v19 v24 v30 v34 (ix2 p q)
      = (Cert.Sage.lin (fun k : Fin 128 => v0 (ix2 p k)) (fun k : Fin 128 => v3 (ix2 p k))
            (fun k : Fin 128 => v6 (ix2 q k)) (fun k : Fin 128 => v8 (ix2 q k)) (v15 (ix2 (0 : Fin 1) q))
          - v24 (ix2 (0 : Fin 1) q)) * Ideal.rsqrt (v19 (ix2 (0 : Fin 1) q) + Cert.Sage.eps)
          * v30 (ix2 (0 : Fin 1) q) + v34 (ix2 (0 : Fin 1) q) := by
  unfold k1_pay2
  simp only [addf_apply, subf_apply, mulf_apply, shapeCast_self, broadcastTo_1b_ab_apply, rsqrt_apply,
    broadcast_apply]
  rw [productH_weights_apply, productH_weights_apply]
  simp only [truncf_apply]
  rfl

/-- The rectifier. -/
theorem clipped1_apply (v : FVec Ideal S2000x128 .f32) (i : S2000x128.Idx) :
    k1_pay1 (F := Ideal) v i = max (v i) 0 := by
  unfold k1_pay1
  simp only [maximumf_apply, broadcast_apply]
  exact congrArg (max (v i)) Ideal.ofBits_zero_f32

/-- The second hidden body at (p, q); the blocks in the same order as in the first. -/
theorem out1_9_apply (x0 x1 : Vec Ideal S2000x128 .f32) (x2 x3 : Vec Ideal S128x128 .f32)
    (x4 x5 x6 x7 x8 : Vec Ideal S1x128 .f32) (p : Fin 2000) (q : Fin 128) :
    out1_9 (F := Ideal) x0 x1 x2 x3 x4 x5 x6 x7 x8 (ix2 p q)
      = Cert.Sage.bnrelu (Cert.Sage.lin (fun k : Fin 128 => x0 (ix2 p k)) (fun k : Fin 128 => x1 (ix2 p k))
            (fun k : Fin 128 => x2 (ix2 q k)) (fun k : Fin 128 => x3 (ix2 q k)) (x4 (ix2 (0 : Fin 1) q)))
          (x7 (ix2 (0 : Fin 1) q)) (x8 (ix2 (0 : Fin 1) q)) (x5 (ix2 (0 : Fin 1) q)) (x6 (ix2 (0 : Fin 1) q)) := by
  unfold out1_9
  rw [View.canon_unit_zero offsets_zero]
  simp only [View.ld_unit_zero (S := S2000x128) offsets_zero, View.ld_unit_zero (S := S128x128) offsets_zero,
    View.ld_unit_zero (S := S1x128) offsets_zero]
  rw [clipped1_apply, normalised1_apply]
  rfl

/-! ## The last layer's product: a [2000, 128] block against a [128, 64] matrix -/

/-- The left operand is read in the output's row. -/
theorem dotC_lhs_row (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- The right operand is read in the output's column. -/
theorem dotC_rhs_col (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The product accumulated from zero, at (p, q): the sum over k of a[p,k] · b[k,q]. -/
theorem productC_apply {φ₁ φ₂ : FTy} (a : FVec Ideal S2000x128 φ₁) (b : FVec Ideal S128x64 φ₂) (p : Fin 2000) (q : Fin 64) :
    matmul dot_S2000x128_S128x64_S2000x64_1_0_0_1_n_n none a b (constant S2000x64 .f32 0x00000000#32) (ix2 p q)
      = ∑ k : Fin 128, a (ix2 p k) * b (ix2 k q) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun d => Fin.ext (by
      match d with
      | ⟨0, _⟩ => exact dotC_lhs_row _ _
      | ⟨1, _⟩ => exact (dot_S2000x128_S128x64_S2000x64_1_0_0_1_n_n.lhsIdx_val_of_single rfl _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun d => Fin.ext (by
      match d with
      | ⟨0, _⟩ => exact (dot_S2000x128_S128x64_S2000x64_1_0_0_1_n_n.rhsIdx_val_of_single rfl _ _).trans hk
      | ⟨1, _⟩ => exact dotC_rhs_col _ _)
  rw [el, er]

/-- Against the TRANSPOSED weights w (one row per class): the sum over k of a[p,k] · w[q,k]. -/
theorem productC_weights_apply {φ₁ φ₂ : FTy} (a : FVec Ideal S2000x128 φ₁) (w : FVec Ideal S64x128 φ₂)
    (h : S64x128.Transposes [1, 0] S128x64) (p : Fin 2000) (q : Fin 64) :
    matmul dot_S2000x128_S128x64_S2000x64_1_0_0_1_n_n none a (transpose S128x64 [1, 0] w h)
        (constant S2000x64 .f32 0x00000000#32) (ix2 p q)
      = ∑ k : Fin 128, a (ix2 p k) * w (ix2 q k) := by
  rw [productC_apply]
  exact Finset.sum_congr rfl fun k _ => congrArg (a (ix2 p k) * ·) (transpose_ix2_apply w h k q)

/-! ## The last layer's body -/

/-- A vector of row values viewed as a column reads the row's value. -/
theorem column_apply {α : Type} (v : S2000.Idx → α) (h : S2000.ShapeCasts S2000x1) (p : Fin 2000) (u : Fin 1) :
    shapeCast S2000x1 v h (ix2 p u) = v (ix1 p) :=
  shapeCast_apply v h _ _ (by
    have hu : u.val = 0 := by omega
    rw [Shape.rowMajor_val_two, Shape.rowMajor_val_one]
    show p.val = p.val * 1 + u.val
    omega)

/-- A column spread over the row reads the column's entry of that row. -/
theorem spread_apply {α : Type} (v : S2000x1.Idx → α) (h : S2000x1.Broadcasts S2000x64) (p : Fin 2000) (q : Fin 64) :
    broadcastTo S2000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- Row p with the lane coordinate j put back is the entry (p, j). -/
theorem lift_row (h : S2000x64.Reduces [1] S2000) (p : Fin 2000) (j : Fin 64) :
    h.lift (ix1 p) j = ix2 p j :=
  funext fun d => Fin.ext (by match d with | ⟨0, _⟩ => rfl | ⟨1, _⟩ => rfl)

/-- The lane maximum of a row, started from −∞, is the row's maximum. -/
theorem lanemax_apply (v : FVec Ideal S2000x64 .f32) (h : S2000x64.Reduces [1] S2000) (p : Fin 2000) :
    multiReduction .maximumf [1] S2000 v 0xFF800000#32 h (.inl rfl) rfl (ix1 p)
      = Cert.Sage.rowmax (fun j : Fin 64 => v (ix2 p j)) := by
  refine (Ideal.multiReduction_maximumf_single v 0xFF800000#32 h (.inl rfl) rfl (ix1 p)).trans ?_
  have e : (v ∘ h.lift (ix1 p)) = fun j : Fin 64 => v (ix2 p j) := funext fun j => congrArg v (lift_row h p j)
  rw [e]
  rfl

/-- The lane sum of a row is the sum over the row. -/
theorem lanesum_apply (v : FVec Ideal S2000x64 .f32) (h : S2000x64.Reduces [1] S2000) (p : Fin 2000) :
    multiReduction .add [1] S2000 v 0x00000000#32 h (.inl rfl) rfl (ix1 p) = ∑ j : Fin 64, v (ix2 p j) := by
  refine (Ideal.multiReduction_add_single v 0x00000000#32 h (.inl rfl) rfl (ix1 p)).trans ?_
  exact Finset.sum_congr rfl fun j _ => congrArg v (lift_row h p j)

/-- The tail of the last layer's body: from the affine values of a block of rows to their log-softmax. -/
theorem softmax_tail_apply (y : FVec Ideal S2000x64 .f32) (hr : S2000x64.Reduces [1] S2000)
    (hc : S2000.ShapeCasts S2000x1) (hb : S2000x1.Broadcasts S2000x64) (p : Fin 2000) (q : Fin 64) :
    subf
        (subf y (broadcastTo S2000x64
          (shapeCast S2000x1 (multiReduction .maximumf [1] S2000 y 0xFF800000#32 hr (.inl rfl) rfl) hc) hb))
        (broadcastTo S2000x64
          (Idealize.ShloMosaic.log (shapeCast S2000x1
            (multiReduction .add [1] S2000
              (Idealize.ShloMosaic.exp (subf y (broadcastTo S2000x64
                (shapeCast S2000x1 (multiReduction .maximumf [1] S2000 y 0xFF800000#32 hr (.inl rfl) rfl) hc) hb)))
              0x00000000#32 hr (.inl rfl) rfl) hc)) hb)
        (ix2 p q)
      = Cert.Sage.lsm (fun j : Fin 64 => y (ix2 p j)) q := by
  simp only [subf_apply, spread_apply, log_apply, column_apply]
  rw [lanesum_apply]
  simp only [exp_apply, subf_apply, spread_apply, column_apply]
  rw [lanemax_apply]
  rfl

/-- What the last body stores, at (p, q): the log-softmax, at class q, of row p's 64 affine values. -/
theorem logsoftmax2_apply (v0 v3 : Vec Ideal S2000x128 .f32) (v6 v8 : Vec Ideal S64x128 .f32)
    (v15 : Vec Ideal S1x64 .f32) (p : Fin 2000) (q : Fin 64) :
    k2_pay1 (F := Ideal) v0 v3 v6 v8 v15 (ix2 p q)
      = Cert.Sage.lsm (fun j : Fin 64 => Cert.Sage.lin (fun k : Fin 128 => v0 (ix2 p k))
          (fun k : Fin 128 => v3 (ix2 p k)) (fun k : Fin 128 => v6 (ix2 j k)) (fun k : Fin 128 => v8 (ix2 j k))
          (v15 (ix2 (0 : Fin 1) j))) q := by
  unfold k2_pay1
  refine (softmax_tail_apply _ _ _ _ p q).trans ?_
  refine congrArg (fun y => Cert.Sage.lsm y q) (funext fun j => ?_)
  simp only [addf_apply, shapeCast_self, broadcastTo_1b_ab_apply]
  rw [productC_weights_apply, productC_weights_apply]
  simp only [truncf_apply]
  rfl

/-- The last body at (p, q).  x0 is the block of aggregates, x1 of features, x2 the neighbour weights, x3 the self
    weights (64 rows each), x4 the bias. -/
theorem out2_5_apply (x0 x1 : Vec Ideal S2000x128 .f32) (x2 x3 : Vec Ideal S64x128 .f32)
    (x4 : Vec Ideal S1x64 .f32) (p : Fin 2000) (q : Fin 64) :
    out2_5 (F := Ideal) x0 x1 x2 x3 x4 (ix2 p q)
      = Cert.Sage.lsm (fun j : Fin 64 => Cert.Sage.lin (fun k : Fin 128 => x0 (ix2 p k))
          (fun k : Fin 128 => x1 (ix2 p k)) (fun k : Fin 128 => x2 (ix2 j k)) (fun k : Fin 128 => x3 (ix2 j k))
          (x4 (ix2 (0 : Fin 1) j))) q := by
  unfold out2_5
  rw [View.canon_unit_zero offsets_zero]
  simp only [View.ld_unit_zero (S := S2000x128) offsets_zero, View.ld_unit_zero (S := S64x128) offsets_zero,
    View.ld_unit_zero (S := S1x64) offsets_zero]
  exact logsoftmax2_apply x0 x1 x2 x3 x4 p q

end Cert.Sage.Body

end
-- ==== Proof.KArr.lean ====
/-
  From blocks to arrays, for each of the three kernels, at any contents V the kernel is entered with.

  Each kernel runs over fifty grid points; point t takes rows t·2000 … t·2000 + 1999 of its two row-blocked inputs (the
  nodes' aggregates and the nodes' features), the whole of the two weight matrices and of the per-feature rows, and
  writes back rows t·2000 … of the output.  Row p of a block is therefore node t·2000 + p, the body's result at (p, q)
  is the layer's function of that node at feature q, and the fifty blocks cover the output array: it ends holding the
  layer's function of the entry arrays at every node.
-/
import proofs.«140391_j1838246003329_1_alg».proof.Proof.Gen.KernelIdeal.Frame
import proofs.«140391_j1838246003329_1_alg».proof.Proof.Spec
import proofs.«140391_j1838246003329_1_alg».proof.Proof.KBody
import Idealize.ShloMosaic.Lib.Pipeline.Value
import Idealize.ShloMosaic.Lib.ValueIdx

set_option maxRecDepth 16384

noncomputable section

namespace Cert.Sage.KArr

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A one-row matrix read as a vector. -/
def unrow128 (v : S1x128.Idx → EReal) : Cert.Sage.SD.Idx → EReal := fun j => v (ix2 (0 : Fin 1) (j 0))
/-- The same for the 64 classes. -/
def unrow64 (v : S1x64.Idx → EReal) : Cert.Sage.SO.Idx → EReal := fun j => v (ix2 (0 : Fin 1) (j 0))

/-! ## The first hidden layer's kernel -/

/-- Where the kernel's windows sit at grid point t: the two row-blocked inputs and the output at block row t, the
    weights and the per-feature rows at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The first hidden layer's array as one function of the arrays its kernel is entered with. -/
def G0 (c : Dev nD) : Cert.Sage.SNxD.Idx → EReal :=
  Cert.Sage.hidden (V c main_v20) (V c main_arg0) (V c main_arg3) (V c main_arg4)
    (unrow128 (V c main_v21)) (unrow128 (V c main_v22)) (unrow128 (V c main_v23)) (unrow128 (V c main_v24)) (unrow128 (V c main_v25))

/-- What grid point t writes back is block row t of that function: row p of the block is node t·2000 + p, whose
    aggregate and feature rows are row p of the two row-blocked inputs; the weights and per-feature rows are read whole. -/
theorem flushed0
    (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  have hN : cfg0.N = 50 := N_0
  obtain ⟨e00, e01, e10, e11, e20, e21, e30, e31, e40, e41, e50, e51, e60, e61, e70, e71, e80, e81, e90, e91⟩ := idx0 t
  funext j
  obtain ⟨p, q, rfl⟩ : ∃ (p : Fin 2000) (q : Fin 128), j = ix2 p q := ⟨j 0, j 1, eq_ix2 j⟩
  have hr : t.val * 2000 + p.val < 100000 := by have := t.isLt; have := p.isLt; omega
  refine (Cert.Sage.Body.out0_9_apply (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  let r : Fin 100000 := ⟨t.val * 2000 + p.val, hr⟩
  have hout : ((cfg0.win 9).blk t).view.emb (ix2 p q) = ix2 r q := by
    funext a; apply Fin.ext
    match a with
    | ⟨0, _⟩ => show win0_9.index t (0 : Fin 2) * 2000 + 1 * p.val = t.val * 2000 + p.val; rw [e90]; omega
    | ⟨1, _⟩ => show win0_9.index t (1 : Fin 2) * 128 + 1 * q.val = q.val; rw [e91]; omega
  have h0 : ∀ k : Fin 128, iblk0 V c 0 t (ix2 p k) = V c main_v20 (ix2 r k) := fun k => by
    show V c main_v20 (((cfg0.win 0).blk t).view.emb (ix2 p k)) = _
    refine congrArg _ ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 128 + 1 * k.val = k.val; rw [e01]; omega
  have h1 : ∀ k : Fin 128, iblk0 V c 1 t (ix2 p k) = V c main_arg0 (ix2 r k) := fun k => by
    show V c main_arg0 (((cfg0.win 1).blk t).view.emb (ix2 p k)) = _
    refine congrArg _ ?_
    funext a; apply Fin.ext
    match a with
    | ⟨0, _⟩ => show win0_1.index t (0 : Fin 2) * 2000 + 1 * p.val = t.val * 2000 + p.val; rw [e10]; omega
    | ⟨1, _⟩ => show win0_1.index t (1 : Fin 2) * 128 + 1 * k.val = k.val; rw [e11]; omega
  have h2 : ∀ (j : Fin 128) (k : Fin 128), iblk0 V c 2 t (ix2 j k) = V c main_arg3 (ix2 j k) := fun j k => by
    show V c main_arg3 (((cfg0.win 2).blk t).view.emb (ix2 j k)) = _
    refine congrArg _ ?_
    funext a; apply Fin.ext
    match a with
    | ⟨0, _⟩ => show win0_2.index t (0 : Fin 2) * 128 + 1 * j.val = j.val; rw [e20]; omega
    | ⟨1, _⟩ => show win0_2.index t (1 : Fin 2) * 128 + 1 * k.val = k.val; rw [e21]; omega
  have h3 : ∀ (j : Fin 128) (k : Fin 128), iblk0 V c 3 t (ix2 j k) = V c main_arg4 (ix2 j k) := fun j k => by
    show V c main_arg4 (((cfg0.win 3).blk t).view.emb (ix2 j k)) = _
    refine congrArg _ ?_
    funext a; apply Fin.ext
    match a with
    | ⟨0, _⟩ => show win0_3.index t (0 : Fin 2) * 128 + 1 * j.val = j.val; rw [e30]; omega
    | ⟨1, _⟩ => show win0_3.index t (1 : Fin 2) * 128 + 1 * k.val = k.val; rw [e31]; omega
  have h4 : ∀ j : Fin 128, iblk0 V c 4 t (ix2 (0 : Fin 1) j) = V c main_v21 (ix2 (0 : Fin 1) j) := fun j => by
    show V c main_v21 (((cfg0.win 4).blk t).view.emb (ix2 (0 : Fin 1) j)) = _
    refine congrArg _ ?_
    funext a; apply Fin.ext
    match a with
    | ⟨0, _⟩ => show win0_4.index t (0 : Fin 2) * 1 + 1 * (0 : Fin 1).val = (0 : Fin 1).val; rw [e40]; rfl
    | ⟨1, _⟩ => show win0_4.index t (1 : Fin 2) * 128 + 1 * j.val = j.val; rw [e41]; omega
  have h5 : ∀ j : Fin 128, iblk0 V c 5 t (ix2 (0 : Fin 1) j) = V c main_v22 (ix2 (0 : Fin 1) j) := fun j => by
    show V c main_v22 (((cfg0.win 5).blk t).view.emb (ix2 (0 : Fin 1) j)) = _
    refine congrArg _ ?_
    funext a; apply Fin.ext
    match a with
    | ⟨0, _⟩ => show win0_5.index t (0 : Fin 2) * 1 + 1 * (0 : Fin 1).val = (0 : Fin 1).val; rw [e50]; rfl
    | ⟨1, _⟩ => show win0_5.index t (1 : Fin 2) * 128 + 1 * j.val = j.val; rw [e51]; omega
  have h6 : ∀ j : Fin 128, iblk0 V c 6 t (ix2 (0 : Fin 1) j) = V c main_v23 (ix2 (0 : Fin 1) j) := fun j => by
    show V c main_v23 (((cfg0.win 6).blk t).view.emb (ix2 (0 : Fin 1) j)) = _
    refine congrArg _ ?_
    funext a; apply Fin.ext
    match a with
    | ⟨0, _⟩ => show win0_6.index t (0 : Fin 2) * 1 + 1 * (0 : Fin 1).val = (0 : Fin 1).val; rw [e60]; rfl
    | ⟨1, _⟩ => show win0_6.index t (1 : Fin 2) * 128 + 1 * j.val = j.val; rw [e61]; omega
  have h7 : ∀ j : Fin 128, iblk0 V c 7 t (ix2 (0 : Fin 1) j) = V c main_v24 (ix2 (0 : Fin 1) j) := fun j => by
    show V c main_v24 (((cfg0.win 7).blk t).view.emb (ix2 (0 : Fin 1) j)) = _
    refine congrArg _ ?_
    funext a; apply Fin.ext
    match a with
    | ⟨0, _⟩ => show win0_7.index t (0 : Fin 2) * 1 + 1 * (0 : Fin 1).val = (0 : Fin 1).val; rw [e70]; rfl
    | ⟨1, _⟩ => show win0_7.index t (1 : Fin 2) * 128 + 1 * j.val = j.val; rw [e71]; omega
  have h8 : ∀ j : Fin 128, iblk0 V c 8 t (ix2 (0 : Fin 1) j) = V c main_v25 (ix2 (0 : Fin 1) j) := fun j => by
    show V c main_v25 (((cfg0.win 8).blk t).view.emb (ix2 (0 : Fin 1) j)) = _
    refine congrArg _ ?_
    funext a; apply Fin.ext
    match a with
    | ⟨0, _⟩ => show win0_8.index t (0 : Fin 2) * 1 + 1 * (0 : Fin 1).val = (0 : Fin 1).val; rw [e80]; rfl
    | ⟨1, _⟩ => show win0_8.index t (1 : Fin 2) * 128 + 1 * j.val = j.val; rw [e81]; omega
  show _ = G0 V c (((cfg0.win 9).blk t).view.emb (ix2 p q))
  rw [hout]
  simp only [h0, h1, h2, h3, h4, h5, h6, h7, h8]
  rfl

/-- An index of the array is in point t's block iff each coordinate is in the block's range on its axis. -/
theorem mem_blk0 (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v26).slice (win0_9.rect t)).set ↔ _
  rw [View.set_slice_whole, Rect.mem_set_unit]
  exact Iff.rfl

/-- The fifty row blocks cover the array: node n is in block n / 2000. -/
theorem cover0 (i : S100000x128.Idx) :
    ∃ t : Fin cfg0.N, (cfg0.win 9).flush t = true ∧ i ∈ ((cfg0.win 9).blk t).view.set := by
  have hN : cfg0.N = 50 := N_0
  have hi0 : (i 0).val < 100000 := (i 0).isLt
  have hi1 : (i 1).val < 128 := (i 1).isLt
  have ht : (i 0).val / 2000 < cfg0.N := by omega
  obtain ⟨e00, e01, e10, e11, e20, e21, e30, e31, e40, e41, e50, e51, e60, e61, e70, e71, e80, e81, e90, e91⟩ := idx0 ⟨(i 0).val / 2000, ht⟩
  refine ⟨⟨(i 0).val / 2000, ht⟩, flush0_9 _, ?_⟩
  rw [mem_blk0]
  intro a
  match a with
  | ⟨0, _⟩ =>
    show win0_9.index ⟨(i 0).val / 2000, ht⟩ (0 : Fin 2) * 2000 ≤ (i 0).val ∧ (i 0).val < win0_9.index ⟨(i 0).val / 2000, ht⟩ (0 : Fin 2) * 2000 + 2000
    rw [e90]; show (i 0).val / 2000 * 2000 ≤ (i 0).val ∧ (i 0).val < (i 0).val / 2000 * 2000 + 2000; omega
  | ⟨1, _⟩ =>
    show win0_9.index ⟨(i 0).val / 2000, ht⟩ (1 : Fin 2) * 128 ≤ (i 1).val ∧ (i 1).val < win0_9.index ⟨(i 0).val / 2000, ht⟩ (1 : Fin 2) * 128 + 128
    rw [e91]; omega

/-- So the array ends holding that function. -/
theorem array0
    (c : Dev nD) : (dat0 V c).arrAt 9 cfg0.N = G0 V c :=
  (dat0 V c).arrAt_eq_of_cover 9 (G0 V c) (fun t _ => flushed0 V c t) cover0

/-! ## The second hidden layer's kernel -/

/-- Where the kernel's windows sit at grid point t: the two row-blocked inputs and the output at block row t, the
    weights and the per-feature rows at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The second hidden layer's array as one function of the arrays its kernel is entered with. -/
def G1 (c : Dev nD) : Cert.Sage.SNxD.Idx → EReal :=
  Cert.Sage.hidden (V c main_v38) (V c main_v26) (V c main_arg10) (V c main_arg11)
    (unrow128 (V c main_v39)) (unrow128 (V c main_v40)) (unrow128 (V c main_v41)) (unrow128 (V c main_v42)) (unrow128 (V c main_v43))

/-- What grid point t writes back is block row t of that function: row p of the block is node t·2000 + p, whose
    aggregate and feature rows are row p of the two row-blocked inputs; the weights and per-feature rows are read whole. -/
theorem flushed1
    (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  have hN : cfg1.N = 50 := N_1
  obtain ⟨e00, e01, e10, e11, e20, e21, e30, e31, e40, e41, e50, e51, e60, e61, e70, e71, e80, e81, e90, e91⟩ := idx1 t
  funext j
  obtain ⟨p, q, rfl⟩ : ∃ (p : Fin 2000) (q : Fin 128), j = ix2 p q := ⟨j 0, j 1, eq_ix2 j⟩
  have hr : t.val * 2000 + p.val < 100000 := by have := t.isLt; have := p.isLt; omega
  refine (Cert.Sage.Body.out1_9_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  let r : Fin 100000 := ⟨t.val * 2000 + p.val, hr⟩
  have hout : ((cfg1.win 9).blk t).view.emb (ix2 p q) = ix2 r q := by
    funext a; apply Fin.ext
    match a with
    | ⟨0, _⟩ => show win1_9.index t (0 : Fin 2) * 2000 + 1 * p.val = t.val * 2000 + p.val; rw [e90]; omega
    | ⟨1, _⟩ => show win1_9.index t (1 : Fin 2) * 128 + 1 * q.val = q.val; rw [e91]; omega
  have h0 : ∀ k : Fin 128, iblk1 V c 0 t (ix2 p k) = V c main_v38 (ix2 r k) := fun k => by
    show V c main_v38 (((cfg1.win 0).blk t).view.emb (ix2 p k)) = _
    refine congrArg _ ?_
    funext a; apply Fin.ext
    match a with
    | ⟨0, _⟩ => show win1_0.index t (0 : Fin 2) * 2000 + 1 * p.val = t.val * 2000 + p.val; rw [e00]; omega
    | ⟨1, _⟩ => show win1_0.index t (1 : Fin 2) * 128 + 1 * k.val = k.val; rw [e01]; omega
  have h1 : ∀ k : Fin 128, iblk1 V c 1 t (ix2 p k) = V c main_v26 (ix2 r k) := fun k => by
    show V c main_v26 (((cfg1.win 1).blk t).view.emb (ix2 p k)) = _
    refine congrArg _ ?_
    funext a; apply Fin.ext
    match a with
    | ⟨0, _⟩ => show win1_1.index t (0 : Fin 2) * 2000 + 1 * p.val = t.val * 2000 + p.val; rw [e10]; omega
    | ⟨1, _⟩ => show win1_1.index t (1 : Fin 2) * 128 + 1 * k.val = k.val; rw [e11]; omega
  have h2 : ∀ (j : Fin 128) (k : Fin 128), iblk1 V c 2 t (ix2 j k) = V c main_arg10 (ix2 j k) := fun j k => by
    show V c main_arg10 (((cfg1.win 2).blk t).view.emb (ix2 j k)) = _
    refine congrArg _ ?_
    funext a; apply Fin.ext
    match a with
    | ⟨0, _⟩ => show win1_2.index t (0 : Fin 2) * 128 + 1 * j.val = j.val; rw [e20]; omega
    | ⟨1, _⟩ => show win1_2.index t (1 : Fin 2) * 128 + 1 * k.val = k.val; rw [e21]; omega
  have h3 : ∀ (j : Fin 128) (k : Fin 128), iblk1 V c 3 t (ix2 j k) = V c main_arg11 (ix2 j k) := fun j k => by
    show V c main_arg11 (((cfg1.win 3).blk t).view.emb (ix2 j k)) = _
    refine congrArg _ ?_
    funext a; apply Fin.ext
    match a with
    | ⟨0, _⟩ => show win1_3.index t (0 : Fin 2) * 128 + 1 * j.val = j.val; rw [e30]; omega
    | ⟨1, _⟩ => show win1_3.index t (1 : Fin 2) * 128 + 1 * k.val = k.val; rw [e31]; omega
  have h4 : ∀ j : Fin 128, iblk1 V c 4 t (ix2 (0 : Fin 1) j) = V c main_v39 (ix2 (0 : Fin 1) j) := fun j => by
    show V c main_v39 (((cfg1.win 4).blk t).view.emb (ix2 (0 : Fin 1) j)) = _
    refine congrArg _ ?_
    funext a; apply Fin.ext
    match a with
    | ⟨0, _⟩ => show win1_4.index t (0 : Fin 2) * 1 + 1 * (0 : Fin 1).val = (0 : Fin 1).val; rw [e40]; rfl
    | ⟨1, _⟩ => show win1_4.index t (1 : Fin 2) * 128 + 1 * j.val = j.val; rw [e41]; omega
  have h5 : ∀ j : Fin 128, iblk1 V c 5 t (ix2 (0 : Fin 1) j) = V c main_v40 (ix2 (0 : Fin 1) j) := fun j => by
    show V c main_v40 (((cfg1.win 5).blk t).view.emb (ix2 (0 : Fin 1) j)) = _
    refine congrArg _ ?_
    funext a; apply Fin.ext
    match a with
    | ⟨0, _⟩ => show win1_5.index t (0 : Fin 2) * 1 + 1 * (0 : Fin 1).val = (0 : Fin 1).val; rw [e50]; rfl
    | ⟨1, _⟩ => show win1_5.index t (1 : Fin 2) * 128 + 1 * j.val = j.val; rw [e51]; omega
  have h6 : ∀ j : Fin 128, iblk1 V c 6 t (ix2 (0 : Fin 1) j) = V c main_v41 (ix2 (0 : Fin 1) j) := fun j => by
    show V c main_v41 (((cfg1.win 6).blk t).view.emb (ix2 (0 : Fin 1) j)) = _
    refine congrArg _ ?_
    funext a; apply Fin.ext
    match a with
    | ⟨0, _⟩ => show win1_6.index t (0 : Fin 2) * 1 + 1 * (0 : Fin 1).val = (0 : Fin 1).val; rw [e60]; rfl
    | ⟨1, _⟩ => show win1_6.index t (1 : Fin 2) * 128 + 1 * j.val = j.val; rw [e61]; omega
  have h7 : ∀ j : Fin 128, iblk1 V c 7 t (ix2 (0 : Fin 1) j) = V c main_v42 (ix2 (0 : Fin 1) j) := fun j => by
    show V c main_v42 (((cfg1.win 7).blk t).view.emb (ix2 (0 : Fin 1) j)) = _
    refine congrArg _ ?_
    funext a; apply Fin.ext
    match a with
    | ⟨0, _⟩ => show win1_7.index t (0 : Fin 2) * 1 + 1 * (0 : Fin 1).val = (0 : Fin 1).val; rw [e70]; rfl
    | ⟨1, _⟩ => show win1_7.index t (1 : Fin 2) * 128 + 1 * j.val = j.val; rw [e71]; omega
  have h8 : ∀ j : Fin 128, iblk1 V c 8 t (ix2 (0 : Fin 1) j) = V c main_v43 (ix2 (0 : Fin 1) j) := fun j => by
    show V c main_v43 (((cfg1.win 8).blk t).view.emb (ix2 (0 : Fin 1) j)) = _
    refine congrArg _ ?_
    funext a; apply Fin.ext
    match a with
    | ⟨0, _⟩ => show win1_8.index t (0 : Fin 2) * 1 + 1 * (0 : Fin 1).val = (0 : Fin 1).val; rw [e80]; rfl
    | ⟨1, _⟩ => show win1_8.index t (1 : Fin 2) * 128 + 1 * j.val = j.val; rw [e81]; omega
  show _ = G1 V c (((cfg1.win 9).blk t).view.emb (ix2 p q))
  rw [hout]
  simp only [h0, h1, h2, h3, h4, h5, h6, h7, h8]
  rfl

/-- An index of the array is in point t's block iff each coordinate is in the block's range on its axis. -/
theorem mem_blk1 (t : Fin cfg1.N) (i : S100000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v44).slice (win1_9.rect t)).set ↔ _
  rw [View.set_slice_whole, Rect.mem_set_unit]
  exact Iff.rfl

/-- The fifty row blocks cover the array: node n is in block n / 2000. -/
theorem cover1 (i : S100000x128.Idx) :
    ∃ t : Fin cfg1.N, (cfg1.win 9).flush t = true ∧ i ∈ ((cfg1.win 9).blk t).view.set := by
  have hN : cfg1.N = 50 := N_1
  have hi0 : (i 0).val < 100000 := (i 0).isLt
  have hi1 : (i 1).val < 128 := (i 1).isLt
  have ht : (i 0).val / 2000 < cfg1.N := by omega
  obtain ⟨e00, e01, e10, e11, e20, e21, e30, e31, e40, e41, e50, e51, e60, e61, e70, e71, e80, e81, e90, e91⟩ := idx1 ⟨(i 0).val / 2000, ht⟩
  refine ⟨⟨(i 0).val / 2000, ht⟩, flush1_9 _, ?_⟩
  rw [mem_blk1]
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    rw [e90]; show (i 0).val / 2000 * 2000 ≤ (i 0).val ∧ (i 0).val < (i 0).val / 2000 * 2000 + 2000; omega
  | ⟨1, _⟩ =>
    show win1_9.index ⟨(i 0).val / 2000, ht⟩ (1 : Fin 2) * 128 ≤ (i 1).val ∧ (i 1).val < win1_9.index ⟨(i 0).val / 2000, ht⟩ (1 : Fin 2) * 128 + 128
    rw [e91]; omega

/-- So the array ends holding that function. -/
theorem array1
    (c : Dev nD) : (dat1 V c).arrAt 9 cfg1.N = G1 V c :=
  (dat1 V c).arrAt_eq_of_cover 9 (G1 V c) (fun t _ => flushed1 V c t) cover1

/-! ## The classifier's kernel -/

/-- Where the kernel's windows sit at grid point t: the two row-blocked inputs and the output at block row t, the
    weights and the per-feature rows at their one block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The classifier's array as one function of the arrays its kernel is entered with. -/
def G2 (c : Dev nD) : Cert.Sage.SNxO.Idx → EReal :=
  Cert.Sage.classify (V c main_v56) (V c main_v44) (V c main_arg17) (V c main_arg18) (unrow64 (V c main_v57))

/-- What grid point t writes back is block row t of that function: row p of the block is node t·2000 + p, whose
    aggregate and feature rows are row p of the two row-blocked inputs; the weights and per-feature rows are read whole. -/
theorem flushed2
    (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  have hN : cfg2.N = 50 := N_2
  obtain ⟨e00, e01, e10, e11, e20, e21, e30, e31, e40, e41, e50, e51⟩ := idx2 t
  funext j
  obtain ⟨p, q, rfl⟩ : ∃ (p : Fin 2000) (q : Fin 64), j = ix2 p q := ⟨j 0, j 1, eq_ix2 j⟩
  have hr : t.val * 2000 + p.val < 100000 := by have := t.isLt; have := p.isLt; omega
  refine (Cert.Sage.Body.out2_5_apply (iblk2 V c 0 t) (iblk2 V c 1 t) (iblk2 V c 2 t) (iblk2 V c 3 t) (iblk2 V c 4 t) p q).trans ?_
  let r : Fin 100000 := ⟨t.val * 2000 + p.val, hr⟩
  have hout : ((cfg2.win 5).blk t).view.emb (ix2 p q) = ix2 r q := by
    funext a; apply Fin.ext
    match a with
    | ⟨0, _⟩ => show win2_5.index t (0 : Fin 2) * 2000 + 1 * p.val = t.val * 2000 + p.val; rw [e50]; omega
    | ⟨1, _⟩ => show win2_5.index t (1 : Fin 2) * 64 + 1 * q.val = q.val; rw [e51]; omega
  have h0 : ∀ k : Fin 128, iblk2 V c 0 t (ix2 p k) = V c main_v56 (ix2 r k) := fun k => by
    show V c main_v56 (((cfg2.win 0).blk t).view.emb (ix2 p k)) = _
    refine congrArg _ ?_
    funext a; apply Fin.ext
    match a with
    | ⟨0, _⟩ => show win2_0.index t (0 : Fin 2) * 2000 + 1 * p.val = t.val * 2000 + p.val; rw [e00]; omega
    | ⟨1, _⟩ => show win2_0.index t (1 : Fin 2) * 128 + 1 * k.val = k.val; rw [e01]; omega
  have h1 : ∀ k : Fin 128, iblk2 V c 1 t (ix2 p k) = V c main_v44 (ix2 r k) := fun k => by
    show V c main_v44 (((cfg2.win 1).blk t).view.emb (ix2 p k)) = _
    refine congrArg _ ?_
    funext a; apply Fin.ext
    match a with
    | ⟨0, _⟩ => show win2_1.index t (0 : Fin 2) * 2000 + 1 * p.val = t.val * 2000 + p.val; rw [e10]; omega
    | ⟨1, _⟩ => show win2_1.index t (1 : Fin 2) * 128 + 1 * k.val = k.val; rw [e11]; omega
  have h2 : ∀ (j : Fin 64) (k : Fin 128), iblk2 V c 2 t (ix2 j k) = V c main_arg17 (ix2 j k) := fun j k => by
    show V c main_arg17 (((cfg2.win 2).blk t).view.emb (ix2 j k)) = _
    refine congrArg _ ?_
    funext a; apply Fin.ext
    match a with
    | ⟨0, _⟩ => show win2_2.index t (0 : Fin 2) * 64 + 1 * j.val = j.val; rw [e20]; omega
    | ⟨1, _⟩ => show win2_2.index t (1 : Fin 2) * 128 + 1 * k.val = k.val; rw [e21]; omega
  have h3 : ∀ (j : Fin 64) (k : Fin 128), iblk2 V c 3 t (ix2 j k) = V c main_arg18 (ix2 j k) := fun j k => by
    show V c main_arg18 (((cfg2.win 3).blk t).view.emb (ix2 j k)) = _
    refine congrArg _ ?_
    funext a; apply Fin.ext
    match a with
    | ⟨0, _⟩ => show win2_3.index t (0 : Fin 2) * 64 + 1 * j.val = j.val; rw [e30]; omega
    | ⟨1, _⟩ => show win2_3.index t (1 : Fin 2) * 128 + 1 * k.val = k.val; rw [e31]; omega
  have h4 : ∀ j : Fin 64, iblk2 V c 4 t (ix2 (0 : Fin 1) j) = V c main_v57 (ix2 (0 : Fin 1) j) := fun j => by
    show V c main_v57 (((cfg2.win 4).blk t).view.emb (ix2 (0 : Fin 1) j)) = _
    refine congrArg _ ?_
    funext a; apply Fin.ext
    match a with
    | ⟨0, _⟩ => show win2_4.index t (0 : Fin 2) * 1 + 1 * (0 : Fin 1).val = (0 : Fin 1).val; rw [e40]; rfl
    | ⟨1, _⟩ => show win2_4.index t (1 : Fin 2) * 64 + 1 * j.val = j.val; rw [e41]; omega
  show _ = G2 V c (((cfg2.win 5).blk t).view.emb (ix2 p q))
  rw [hout]
  simp only [h0, h1, h2, h3, h4]
  rfl

/-- An index of the array is in point t's block iff each coordinate is in the block's range on its axis. -/
theorem mem_blk2 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v58).slice (win2_5.rect t)).set ↔ _
  rw [View.set_slice_whole, Rect.mem_set_unit]
  exact Iff.rfl

/-- The fifty row blocks cover the array: node n is in block n / 2000. -/
theorem cover2 (i : S100000x64.Idx) :
    ∃ t : Fin cfg2.N, (cfg2.win 5).flush t = true ∧ i ∈ ((cfg2.win 5).blk t).view.set := by
  have hN : cfg2.N = 50 := N_2
  have hi0 : (i 0).val < 100000 := (i 0).isLt
  have hi1 : (i 1).val < 64 := (i 1).isLt
  have ht : (i 0).val / 2000 < cfg2.N := by omega
  obtain ⟨e00, e01, e10, e11, e20, e21, e30, e31, e40, e41, e50, e51⟩ := idx2 ⟨(i 0).val / 2000, ht⟩
  refine ⟨⟨(i 0).val / 2000, ht⟩, flush2_5 _, ?_⟩
  rw [mem_blk2]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, ht⟩ (1 : Fin 2) * 64 ≤ (i 1).val ∧ (i 1).val < win2_5.index ⟨(i 0).val / 2000, ht⟩ (1 : Fin 2) * 64 + 64
    rw [e51]; omega

/-- So the array ends holding that function. -/
theorem array2
    (c : Dev nD) : (dat2 V c).arrAt 5 cfg2.N = G2 V c :=
  (dat2 V c).arrAt_eq_of_cover 5 (G2 V c) (fun t _ => flushed2 V c t) cover2

end Cert.Sage.KArr

end
-- ==== Proof.Agg.lean ====
/-
  The mean over in-neighbours, as both programs' host operations compute it.

  Both programs gather the source node's feature row along every edge (a negative source index wrapped round once) and
  add it into the destination node's row, from zero: the SEGMENT SUM.  The in-degree is the same sum of ones.  The
  kernel's program multiplies the segment sum by the column 1 / max(degree, 1); the reference divides it by the column
  max(degree, 1).  The gathers and scatters are the same operations of the same operands on both sides and are never
  opened: at every entry the two forms are s · (1/d) and s / d of the same s and the same d = max(degree, 1) ≠ 0.
-/
import proofs.«140391_j1838246003329_1_alg».proof.Proof.Gen.KernelIdeal
import proofs.«140391_j1838246003329_1_alg».proof.Proof.Spec
import Idealize.ShloMosaic.Lib.Pipeline.Value
import Idealize.ShloMosaic.Lib.IdealHost

noncomputable section

namespace Cert.Sage.Agg

open Cert.KernelIdeal Cert.KernelIdeal.Facts₀ Idealize.ShloMosaic Idealize.ShloMosaic.ValueIdx

/-- Node features, [100000, 128]. -/
abbrev Feat := FVec Ideal S100000x128 .f32
/-- One integer per edge, [1600000]. -/
abbrev Edge := (⟨S1600000, .i32⟩ : BufTy).Contents (Elt Ideal)

/-- The source indices as the gather takes them: a negative index has the node count added, and the vector becomes a
    column. -/
def wrap (src : Edge) : (⟨S1600000x1, .i32⟩ : BufTy).Contents (Elt Ideal) :=
  broadcastInDim S1600000x1 ![0] bcast_S1600000_S1600000x1_0
    (select (cmpi CmpIPredicate.slt src (broadcastInDim S1600000 ![] bcast_S_S1600000 (constantI S_ 32 0#32)))
      (addi src (broadcastInDim S1600000 ![] bcast_S_S1600000 (constantI S_ 32 100000#32))) src)

/-- The segment sum: every edge's source row added into its destination's row. -/
def segsum (X : Feat) (src dst : Edge) : Feat :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 X (wrap src))

/-- max(in-degree, 1), one entry per node. -/
def clampDeg (dst : Edge) : FVec Ideal S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The kernel's program's column 1 / max(in-degree, 1). -/
def recipCol (dst : Edge) : FVec Ideal S100000x1 .f32 :=
  broadcastInDim S100000x1 ![0] bcast_S100000_S100000x1_0
    (Host.divf (broadcastInDim S100000 ![] bcast_S_S100000 (constant S_ .f32 0x3F800000#32)) (clampDeg dst))

/-- The aggregate the kernel's program forms: segment sum times the reciprocal column. -/
def aggK (X : Feat) (src dst : Edge) : Feat :=
  mulf (segsum X src dst) (broadcastInDim S100000x128 ![0, 1] bcast_S100000x1_S100000x128_0_1 (recipCol dst))

/-- The aggregate the reference forms: segment sum divided by the column max(in-degree, 1). -/
def aggR (X : Feat) (src dst : Edge) : Feat :=
  Host.divf (segsum X src dst)
    (broadcastInDim S100000x128 ![0, 1] bcast_S100000x1_S100000x128_0_1
      (broadcastInDim S100000x1 ![0] bcast_S100000_S100000x1_0 (clampDeg dst)))

/-- The column entry over (node, feature), and the node over a column entry. -/
abbrev colOf (i : S100000x128.Idx) : S100000x1.Idx := fun a => match a with
  | ⟨0, _⟩ => ⟨(i 0).val, (i 0).isLt⟩
  | ⟨1, _⟩ => ⟨0, Nat.one_pos⟩
abbrev nodeOf (i : S100000x1.Idx) : S100000.Idx := fun a => match a with
  | ⟨0, _⟩ => ⟨(i 0).val, (i 0).isLt⟩

/-- A per-node vector spread to a column and then along the features, read at (node, feature): the node's entry. -/
theorem spread_apply (v : FVec Ideal S100000 .f32) (i : S100000x128.Idx) :
    broadcastInDim S100000x128 ![0, 1] bcast_S100000x1_S100000x128_0_1
        (broadcastInDim S100000x1 ![0] bcast_S100000_S100000x1_0 v) i
      = v (nodeOf (colOf i)) := by
  rw [broadcastInDim_apply _ bcast_S100000x1_S100000x128_0_1 _ i (colOf i)
    (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])]
  exact broadcastInDim_apply _ bcast_S100000_S100000x1_0 v (colOf i) (nodeOf (colOf i))
    (fun a => match a with
      | ⟨0, _⟩ => by show (colOf i 0).val = if (100000 : Nat) = 1 then 0 else (colOf i 0).val; rw [if_neg (by decide)])

/-- The host's quotient of two vectors, read at an index. -/
theorem hostDivf_apply {s : Shape} {φ : FTy} (a b : FVec Ideal s φ) (i : s.Idx) :
    Host.divf a b i = Ideal.div (a i) (b i) := rfl

/-- THE LAW: the two aggregates are one function — at every entry s · (1/d) = s / d with d = max(degree, 1) ≠ 0. -/
theorem aggK_eq_aggR (X : Feat) (src dst : Edge) : aggK X src dst = aggR X src dst := by
  funext i
  unfold aggK aggR recipCol
  generalize segsum X src dst = S
  rw [mulf_apply, hostDivf_apply, spread_apply, spread_apply, hostDivf_apply]
  unfold clampDeg
  generalize Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)) = D
  generalize nodeOf (colOf i) = j
  generalize S i = s
  rw [maximumf_apply, broadcastInDim_apply _ bcast_S_S100000 _ j (fun a => a.elim0) (fun a => a.elim0), constant_apply,
    Ideal.ofBits_one_f32]
  exact Cert.Sage.mean_forms s _

end Cert.Sage.Agg

end
-- ==== Proof.KHost.lean ====
/-
  The idealized kernel's result as the three-layer network of the launch memory.

  The buffer contents at the six boundaries of @main are a fold from the launch memory.  Read through it:
   · an argument array is never written, so at every boundary it holds what it held at launch;
   · the column 1 / max(in-degree, 1) is computed once, before the first kernel, and is never written again;
   · before each kernel the host forms the aggregate of the current features — the features being the launch features,
     then the first kernel's output array, then the second's — and reshapes the layer's per-feature vectors to rows;
   · each kernel leaves its output array at the layer's function of the arrays it was entered with.
  So the first kernel's output is the hidden layer of (aggregate of x, x), the second's the hidden layer of (aggregate
  of that, that), and the result the classifier of (aggregate of the second, the second).
-/
import proofs.«140391_j1838246003329_1_alg».proof.Proof.KArr
import proofs.«140391_j1838246003329_1_alg».proof.Proof.Agg
import Idealize.ShloMosaic.Lib.StableHlo.Run
import Idealize.ShloMosaic.Lib.ValueLayout

set_option maxRecDepth 16384

noncomputable section

namespace Cert.Sage.KHost

open Cert.KernelIdeal Cert.KernelIdeal.Gen Cert.Sage Cert.Sage.Agg
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A buffer that no operation of a host stretch writes keeps its contents across the stretch. -/
local macro "unwritten " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments at the boundaries -/

theorem W1_arg0 (c : Dev nD) : W1 m ρ c (Proc.devRef .tc main_arg0) = m ((c : Thread nD τ).loc main_arg0) := by
  show StableHlo.after hostOps0 (W0 m ρ c) (Proc.devRef .tc main_arg0) = _
  unwritten hostOps0

theorem W1_arg3 (c : Dev nD) : W1 m ρ c (Proc.devRef .tc main_arg3) = m ((c : Thread nD τ).loc main_arg3) := by
  show StableHlo.after hostOps0 (W0 m ρ c) (Proc.devRef .tc main_arg3) = _
  unwritten hostOps0

theorem W1_arg4 (c : Dev nD) : W1 m ρ c (Proc.devRef .tc main_arg4) = m ((c : Thread nD τ).loc main_arg4) := by
  show StableHlo.after hostOps0 (W0 m ρ c) (Proc.devRef .tc main_arg4) = _
  unwritten hostOps0

theorem W1_arg5 (c : Dev nD) : W1 m ρ c (Proc.devRef .tc main_arg5) = m ((c : Thread nD τ).loc main_arg5) := by
  show StableHlo.after hostOps0 (W0 m ρ c) (Proc.devRef .tc main_arg5) = _
  unwritten hostOps0

theorem W1_arg6 (c : Dev nD) : W1 m ρ c (Proc.devRef .tc main_arg6) = m ((c : Thread nD τ).loc main_arg6) := by
  show StableHlo.after hostOps0 (W0 m ρ c) (Proc.devRef .tc main_arg6) = _
  unwritten hostOps0

theorem W1_arg7 (c : Dev nD) : W1 m ρ c (Proc.devRef .tc main_arg7) = m ((c : Thread nD τ).loc main_arg7) := by
  show StableHlo.after hostOps0 (W0 m ρ c) (Proc.devRef .tc main_arg7) = _
  unwritten hostOps0

theorem W1_arg8 (c : Dev nD) : W1 m ρ c (Proc.devRef .tc main_arg8) = m ((c : Thread nD τ).loc main_arg8) := by
  show StableHlo.after hostOps0 (W0 m ρ c) (Proc.devRef .tc main_arg8) = _
  unwritten hostOps0

theorem W1_arg9 (c : Dev nD) : W1 m ρ c (Proc.devRef .tc main_arg9) = m ((c : Thread nD τ).loc main_arg9) := by
  show StableHlo.after hostOps0 (W0 m ρ c) (Proc.devRef .tc main_arg9) = _
  unwritten hostOps0

theorem W1_arg1 (c : Dev nD) : W1 m ρ c (Proc.devRef .tc main_arg1) = m ((c : Thread nD τ).loc main_arg1) := by
  show StableHlo.after hostOps0 (W0 m ρ c) (Proc.devRef .tc main_arg1) = _
  unwritten hostOps0
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = _
  unwritten hostOps1
theorem W4_arg1 (c : Dev nD) : W4 m ρ c (Proc.devRef .tc main_arg1) = m ((c : Thread nD τ).loc main_arg1) :=
  (W4_of_ne m ρ c main_arg1 (by decide)).trans (W3_arg1 m ρ c)

theorem W1_arg2 (c : Dev nD) : W1 m ρ c (Proc.devRef .tc main_arg2) = m ((c : Thread nD τ).loc main_arg2) := by
  show StableHlo.after hostOps0 (W0 m ρ c) (Proc.devRef .tc main_arg2) = _
  unwritten hostOps0
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) := by
  refine Eq.trans ?_ (W2_arg2 m ρ c)
  show StableHlo.after hostOps1 (W2 m ρ c) (Proc.devRef .tc main_arg2) = _
  unwritten hostOps1
theorem W4_arg2 (c : Dev nD) : W4 m ρ c (Proc.devRef .tc main_arg2) = m ((c : Thread nD τ).loc main_arg2) :=
  (W4_of_ne m ρ c main_arg2 (by decide)).trans (W3_arg2 m ρ c)

theorem W1_arg10 (c : Dev nD) : W1 m ρ c (Proc.devRef .tc main_arg10) = m ((c : Thread nD τ).loc main_arg10) := by
  show StableHlo.after hostOps0 (W0 m ρ c) (Proc.devRef .tc main_arg10) = _
  unwritten hostOps0
theorem W2_arg10 (c : Dev nD) : W2 m ρ c (Proc.devRef .tc main_arg10) = m ((c : Thread nD τ).loc main_arg10) :=
  (W2_of_ne m ρ c main_arg10 (by decide)).trans (W1_arg10 m ρ c)

theorem W1_arg11 (c : Dev nD) : W1 m ρ c (Proc.devRef .tc main_arg11) = m ((c : Thread nD τ).loc main_arg11) := by
  show StableHlo.after hostOps0 (W0 m ρ c) (Proc.devRef .tc main_arg11) = _
  unwritten hostOps0
theorem W2_arg11 (c : Dev nD) : W2 m ρ c (Proc.devRef .tc main_arg11) = m ((c : Thread nD τ).loc main_arg11) :=
  (W2_of_ne m ρ c main_arg11 (by decide)).trans (W1_arg11 m ρ c)

theorem W1_arg12 (c : Dev nD) : W1 m ρ c (Proc.devRef .tc main_arg12) = m ((c : Thread nD τ).loc main_arg12) := by
  show StableHlo.after hostOps0 (W0 m ρ c) (Proc.devRef .tc main_arg12) = _
  unwritten hostOps0
theorem W2_arg12 (c : Dev nD) : W2 m ρ c (Proc.devRef .tc main_arg12) = m ((c : Thread nD τ).loc main_arg12) :=
  (W2_of_ne m ρ c main_arg12 (by decide)).trans (W1_arg12 m ρ c)

theorem W1_arg13 (c : Dev nD) : W1 m ρ c (Proc.devRef .tc main_arg13) = m ((c : Thread nD τ).loc main_arg13) := by
  show StableHlo.after hostOps0 (W0 m ρ c) (Proc.devRef .tc main_arg13) = _
  unwritten hostOps0
theorem W2_arg13 (c : Dev nD) : W2 m ρ c (Proc.devRef .tc main_arg13) = m ((c : Thread nD τ).loc main_arg13) :=
  (W2_of_ne m ρ c main_arg13 (by decide)).trans (W1_arg13 m ρ c)

theorem W1_arg14 (c : Dev nD) : W1 m ρ c (Proc.devRef .tc main_arg14) = m ((c : Thread nD τ).loc main_arg14) := by
  show StableHlo.after hostOps0 (W0 m ρ c) (Proc.devRef .tc main_arg14) = _
  unwritten hostOps0
theorem W2_arg14 (c : Dev nD) : W2 m ρ c (Proc.devRef .tc main_arg14) = m ((c : Thread nD τ).loc main_arg14) :=
  (W2_of_ne m ρ c main_arg14 (by decide)).trans (W1_arg14 m ρ c)

theorem W1_arg15 (c : Dev nD) : W1 m ρ c (Proc.devRef .tc main_arg15) = m ((c : Thread nD τ).loc main_arg15) := by
  show StableHlo.after hostOps0 (W0 m ρ c) (Proc.devRef .tc main_arg15) = _
  unwritten hostOps0
theorem W2_arg15 (c : Dev nD) : W2 m ρ c (Proc.devRef .tc main_arg15) = m ((c : Thread nD τ).loc main_arg15) :=
  (W2_of_ne m ρ c main_arg15 (by decide)).trans (W1_arg15 m ρ c)

theorem W1_arg16 (c : Dev nD) : W1 m ρ c (Proc.devRef .tc main_arg16) = m ((c : Thread nD τ).loc main_arg16) := by
  show StableHlo.after hostOps0 (W0 m ρ c) (Proc.devRef .tc main_arg16) = _
  unwritten hostOps0
theorem W2_arg16 (c : Dev nD) : W2 m ρ c (Proc.devRef .tc main_arg16) = m ((c : Thread nD τ).loc main_arg16) :=
  (W2_of_ne m ρ c main_arg16 (by decide)).trans (W1_arg16 m ρ c)

theorem W1_arg17 (c : Dev nD) : W1 m ρ c (Proc.devRef .tc main_arg17) = m ((c : Thread nD τ).loc main_arg17) := by
  show StableHlo.after hostOps0 (W0 m ρ c) (Proc.devRef .tc main_arg17) = _
  unwritten hostOps0
theorem W2_arg17 (c : Dev nD) : W2 m ρ c (Proc.devRef .tc main_arg17) = m ((c : Thread nD τ).loc main_arg17) :=
  (W2_of_ne m ρ c main_arg17 (by decide)).trans (W1_arg17 m ρ c)
theorem W3_arg17 (c : Dev nD) : W3 m ρ c (Proc.devRef .tc main_arg17) = m ((c : Thread nD τ).loc main_arg17) := by
  refine Eq.trans ?_ (W2_arg17 m ρ c)
  show StableHlo.after hostOps1 (W2 m ρ c) (Proc.devRef .tc main_arg17) = _
  unwritten hostOps1
theorem W4_arg17 (c : Dev nD) : W4 m ρ c (Proc.devRef .tc main_arg17) = m ((c : Thread nD τ).loc main_arg17) :=
  (W4_of_ne m ρ c main_arg17 (by decide)).trans (W3_arg17 m ρ c)

theorem W1_arg18 (c : Dev nD) : W1 m ρ c (Proc.devRef .tc main_arg18) = m ((c : Thread nD τ).loc main_arg18) := by
  show StableHlo.after hostOps0 (W0 m ρ c) (Proc.devRef .tc main_arg18) = _
  unwritten hostOps0
theorem W2_arg18 (c : Dev nD) : W2 m ρ c (Proc.devRef .tc main_arg18) = m ((c : Thread nD τ).loc main_arg18) :=
  (W2_of_ne m ρ c main_arg18 (by decide)).trans (W1_arg18 m ρ c)
theorem W3_arg18 (c : Dev nD) : W3 m ρ c (Proc.devRef .tc main_arg18) = m ((c : Thread nD τ).loc main_arg18) := by
  refine Eq.trans ?_ (W2_arg18 m ρ c)
  show StableHlo.after hostOps1 (W2 m ρ c) (Proc.devRef .tc main_arg18) = _
  unwritten hostOps1
theorem W4_arg18 (c : Dev nD) : W4 m ρ c (Proc.devRef .tc main_arg18) = m ((c : Thread nD τ).loc main_arg18) :=
  (W4_of_ne m ρ c main_arg18 (by decide)).trans (W3_arg18 m ρ c)

theorem W1_arg19 (c : Dev nD) : W1 m ρ c (Proc.devRef .tc main_arg19) = m ((c : Thread nD τ).loc main_arg19) := by
  show StableHlo.after hostOps0 (W0 m ρ c) (Proc.devRef .tc main_arg19) = _
  unwritten hostOps0
theorem W2_arg19 (c : Dev nD) : W2 m ρ c (Proc.devRef .tc main_arg19) = m ((c : Thread nD τ).loc main_arg19) :=
  (W2_of_ne m ρ c main_arg19 (by decide)).trans (W1_arg19 m ρ c)
theorem W3_arg19 (c : Dev nD) : W3 m ρ c (Proc.devRef .tc main_arg19) = m ((c : Thread nD τ).loc main_arg19) := by
  refine Eq.trans ?_ (W2_arg19 m ρ c)
  show StableHlo.after hostOps1 (W2 m ρ c) (Proc.devRef .tc main_arg19) = _
  unwritten hostOps1
theorem W4_arg19 (c : Dev nD) : W4 m ρ c (Proc.devRef .tc main_arg19) = m ((c : Thread nD τ).loc main_arg19) :=
  (W4_of_ne m ρ c main_arg19 (by decide)).trans (W3_arg19 m ρ c)

/-! ## The reciprocal column: computed before the first kernel, kept to the end -/

set_option maxHeartbeats 4000000 in
theorem W1_v8 (c : Dev nD) : W1 m ρ c (Proc.devRef .tc main_v8) = recipCol (m ((c : Thread nD τ).loc main_arg2)) := by
  show StableHlo.after hostOps0 (W0 m ρ c) (Proc.devRef .tc main_v8) = _
  after_results_simp
  rfl
theorem W2_v8 (c : Dev nD) : W2 m ρ c (Proc.devRef .tc main_v8) = recipCol (m ((c : Thread nD τ).loc main_arg2)) :=
  (W2_of_ne m ρ c main_v8 (by decide)).trans (W1_v8 m ρ c)
theorem W3_v8 (c : Dev nD) : W3 m ρ c (Proc.devRef .tc main_v8) = recipCol (m ((c : Thread nD τ).loc main_arg2)) := by
  refine Eq.trans ?_ (W2_v8 m ρ c)
  show StableHlo.after hostOps1 (W2 m ρ c) (Proc.devRef .tc main_v8) = _
  unwritten hostOps1
theorem W4_v8 (c : Dev nD) : W4 m ρ c (Proc.devRef .tc main_v8) = recipCol (m ((c : Thread nD τ).loc main_arg2)) :=
  (W4_of_ne m ρ c main_v8 (by decide)).trans (W3_v8 m ρ c)

/-! ## The per-feature vectors, reshaped to rows before each kernel -/

theorem row_main_v21 (c : Dev nD) : KArr.unrow128 (W1 m ρ c (Proc.devRef .tc main_v21)) = m ((c : Thread nD τ).loc main_arg5) := by
  have e : W1 m ρ c (Proc.devRef .tc main_v21) = shapeCast S1x128 (W0 m ρ c (Proc.devRef .tc main_arg5)) shapeCasts_S128_S1x128 := by
    show StableHlo.after hostOps0 (W0 m ρ c) (Proc.devRef .tc main_v21) = _
    after_results; rfl
  rw [e, show W0 m ρ c (Proc.devRef .tc main_arg5) = m ((c : Thread nD τ).loc main_arg5) from rfl]
  funext j
  obtain ⟨q, rfl⟩ : ∃ q : Fin 128, j = ix1 q := ⟨j 0, eq_ix1 j⟩
  exact shapeCast_a_1a_apply _ _ (0 : Fin 1) q
theorem row_main_v22 (c : Dev nD) : KArr.unrow128 (W1 m ρ c (Proc.devRef .tc main_v22)) = m ((c : Thread nD τ).loc main_arg6) := by
  have e : W1 m ρ c (Proc.devRef .tc main_v22) = shapeCast S1x128 (W0 m ρ c (Proc.devRef .tc main_arg6)) shapeCasts_S128_S1x128 := by
    show StableHlo.after hostOps0 (W0 m ρ c) (Proc.devRef .tc main_v22) = _
    after_results; rfl
  rw [e, show W0 m ρ c (Proc.devRef .tc main_arg6) = m ((c : Thread nD τ).loc main_arg6) from rfl]
  funext j
  obtain ⟨q, rfl⟩ : ∃ q : Fin 128, j = ix1 q := ⟨j 0, eq_ix1 j⟩
  exact shapeCast_a_1a_apply _ _ (0 : Fin 1) q
theorem row_main_v23 (c : Dev nD) : KArr.unrow128 (W1 m ρ c (Proc.devRef .tc main_v23)) = m ((c : Thread nD τ).loc main_arg7) := by
  have e : W1 m ρ c (Proc.devRef .tc main_v23) = shapeCast S1x128 (W0 m ρ c (Proc.devRef .tc main_arg7)) shapeCasts_S128_S1x128 := by
    show StableHlo.after hostOps0 (W0 m ρ c) (Proc.devRef .tc main_v23) = _
    after_results; rfl
  rw [e, show W0 m ρ c (Proc.devRef .tc main_arg7) = m ((c : Thread nD τ).loc main_arg7) from rfl]
  funext j
  obtain ⟨q, rfl⟩ : ∃ q : Fin 128, j = ix1 q := ⟨j 0, eq_ix1 j⟩
  exact shapeCast_a_1a_apply _ _ (0 : Fin 1) q
theorem row_main_v24 (c : Dev nD) : KArr.unrow128 (W1 m ρ c (Proc.devRef .tc main_v24)) = m ((c : Thread nD τ).loc main_arg8) := by
  have e : W1 m ρ c (Proc.devRef .tc main_v24) = shapeCast S1x128 (W0 m ρ c (Proc.devRef .tc main_arg8)) shapeCasts_S128_S1x128 := by
    show StableHlo.after hostOps0 (W0 m ρ c) (Proc.devRef .tc main_v24) = _
    after_results; rfl
  rw [e, show W0 m ρ c (Proc.devRef .tc main_arg8) = m ((c : Thread nD τ).loc main_arg8) from rfl]
  funext j
  obtain ⟨q, rfl⟩ : ∃ q : Fin 128, j = ix1 q := ⟨j 0, eq_ix1 j⟩
  exact shapeCast_a_1a_apply _ _ (0 : Fin 1) q
theorem row_main_v25 (c : Dev nD) : KArr.unrow128 (W1 m ρ c (Proc.devRef .tc main_v25)) = m ((c : Thread nD τ).loc main_arg9) := by
  have e : W1 m ρ c (Proc.devRef .tc main_v25) = shapeCast S1x128 (W0 m ρ c (Proc.devRef .tc main_arg9)) shapeCasts_S128_S1x128 := by
    show StableHlo.after hostOps0 (W0 m ρ c) (Proc.devRef .tc main_v25) = _
    after_results; rfl
  rw [e, show W0 m ρ c (Proc.devRef .tc main_arg9) = m ((c : Thread nD τ).loc main_arg9) from rfl]
  funext j
  obtain ⟨q, rfl⟩ : ∃ q : Fin 128, j = ix1 q := ⟨j 0, eq_ix1 j⟩
  exact shapeCast_a_1a_apply _ _ (0 : Fin 1) q
theorem row_main_v39 (c : Dev nD) : KArr.unrow128 (W3 m ρ c (Proc.devRef .tc main_v39)) = m ((c : Thread nD τ).loc main_arg12) := by
  have e : W3 m ρ c (Proc.devRef .tc main_v39) = shapeCast S1x128 (W2 m ρ c (Proc.devRef .tc main_arg12)) shapeCasts_S128_S1x128 := by
    show StableHlo.after hostOps1 (W2 m ρ c) (Proc.devRef .tc main_v39) = _
    after_results; rfl
  rw [e, W2_arg12 m ρ c]
  funext j
  obtain ⟨q, rfl⟩ : ∃ q : Fin 128, j = ix1 q := ⟨j 0, eq_ix1 j⟩
  exact shapeCast_a_1a_apply _ _ (0 : Fin 1) q
theorem row_main_v40 (c : Dev nD) : KArr.unrow128 (W3 m ρ c (Proc.devRef .tc main_v40)) = m ((c : Thread nD τ).loc main_arg13) := by
  have e : W3 m ρ c (Proc.devRef .tc main_v40) = shapeCast S1x128 (W2 m ρ c (Proc.devRef .tc main_arg13)) shapeCasts_S128_S1x128 := by
    show StableHlo.after hostOps1 (W2 m ρ c) (Proc.devRef .tc main_v40) = _
    after_results; rfl
  rw [e, W2_arg13 m ρ c]
  funext j
  obtain ⟨q, rfl⟩ : ∃ q : Fin 128, j = ix1 q := ⟨j 0, eq_ix1 j⟩
  exact shapeCast_a_1a_apply _ _ (0 : Fin 1) q
theorem row_main_v41 (c : Dev nD) : KArr.unrow128 (W3 m ρ c (Proc.devRef .tc main_v41)) = m ((c : Thread nD τ).loc main_arg14) := by
  have e : W3 m ρ c (Proc.devRef .tc main_v41) = shapeCast S1x128 (W2 m ρ c (Proc.devRef .tc main_arg14)) shapeCasts_S128_S1x128 := by
    show StableHlo.after hostOps1 (W2 m ρ c) (Proc.devRef .tc main_v41) = _
    after_results; rfl
  rw [e, W2_arg14 m ρ c]
  funext j
  obtain ⟨q, rfl⟩ : ∃ q : Fin 128, j = ix1 q := ⟨j 0, eq_ix1 j⟩
  exact shapeCast_a_1a_apply _ _ (0 : Fin 1) q
theorem row_main_v42 (c : Dev nD) : KArr.unrow128 (W3 m ρ c (Proc.devRef .tc main_v42)) = m ((c : Thread nD τ).loc main_arg15) := by
  have e : W3 m ρ c (Proc.devRef .tc main_v42) = shapeCast S1x128 (W2 m ρ c (Proc.devRef .tc main_arg15)) shapeCasts_S128_S1x128 := by
    show StableHlo.after hostOps1 (W2 m ρ c) (Proc.devRef .tc main_v42) = _
    after_results; rfl
  rw [e, W2_arg15 m ρ c]
  funext j
  obtain ⟨q, rfl⟩ : ∃ q : Fin 128, j = ix1 q := ⟨j 0, eq_ix1 j⟩
  exact shapeCast_a_1a_apply _ _ (0 : Fin 1) q
theorem row_main_v43 (c : Dev nD) : KArr.unrow128 (W3 m ρ c (Proc.devRef .tc main_v43)) = m ((c : Thread nD τ).loc main_arg16) := by
  have e : W3 m ρ c (Proc.devRef .tc main_v43) = shapeCast S1x128 (W2 m ρ c (Proc.devRef .tc main_arg16)) shapeCasts_S128_S1x128 := by
    show StableHlo.after hostOps1 (W2 m ρ c) (Proc.devRef .tc main_v43) = _
    after_results; rfl
  rw [e, W2_arg16 m ρ c]
  funext j
  obtain ⟨q, rfl⟩ : ∃ q : Fin 128, j = ix1 q := ⟨j 0, eq_ix1 j⟩
  exact shapeCast_a_1a_apply _ _ (0 : Fin 1) q
theorem row_main_v57 (c : Dev nD) : KArr.unrow64 (W5 m ρ c (Proc.devRef .tc main_v57)) = m ((c : Thread nD τ).loc main_arg19) := by
  have e : W5 m ρ c (Proc.devRef .tc main_v57) = shapeCast S1x64 (W4 m ρ c (Proc.devRef .tc main_arg19)) shapeCasts_S64_S1x64 := by
    show StableHlo.after hostOps2 (W4 m ρ c) (Proc.devRef .tc main_v57) = _
    after_results; rfl
  rw [e, W4_arg19 m ρ c]
  funext j
  obtain ⟨q, rfl⟩ : ∃ q : Fin 64, j = ix1 q := ⟨j 0, eq_ix1 j⟩
  exact shapeCast_a_1a_apply _ _ (0 : Fin 1) q

/-! ## The three layers -/

/-- The first hidden layer of the launch memory. -/
def H1 (c : Dev nD) : Feat :=
  hidden (aggK (m ((c : Thread nD τ).loc main_arg0)) (m ((c : Thread nD τ).loc main_arg1)) (m ((c : Thread nD τ).loc main_arg2))) (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- The second hidden layer. -/
def H2 (c : Dev nD) : Feat :=
  hidden (aggK (H1 m c) (m ((c : Thread nD τ).loc main_arg1)) (m ((c : Thread nD τ).loc main_arg2))) (H1 m c) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15)) (m ((c : Thread nD τ).loc main_arg16))

/-- The classifier. -/
def OUT (c : Dev nD) : (⟨S100000x64, .f32⟩ : BufTy).Contents (Elt Ideal) :=
  classify (aggK (H2 m c) (m ((c : Thread nD τ).loc main_arg1)) (m ((c : Thread nD τ).loc main_arg2))) (H2 m c) (m ((c : Thread nD τ).loc main_arg17)) (m ((c : Thread nD τ).loc main_arg18)) (m ((c : Thread nD τ).loc main_arg19))

set_option maxHeartbeats 4000000 in
/-- Before the first kernel the host has formed the aggregate of the launch features. -/
theorem W1_v20 (c : Dev nD) : W1 m ρ c (Proc.devRef .tc main_v20) = aggK (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  rfl

/-- The first kernel's output array is the first hidden layer. -/
theorem W2_v26 (c : Dev nD) : W2 m ρ c (Proc.devRef .tc main_v26) = H1 m c := by
  refine (W2_arr m ρ c 9).trans ((KArr.array0 (V1 m ρ) c).trans ?_)
  show hidden (W1 m ρ c (Proc.devRef .tc main_v20)) (W1 m ρ c (Proc.devRef .tc main_arg0)) (W1 m ρ c (Proc.devRef .tc main_arg3)) (W1 m ρ c (Proc.devRef .tc main_arg4))
      (KArr.unrow128 (W1 m ρ c (Proc.devRef .tc main_v21))) (KArr.unrow128 (W1 m ρ c (Proc.devRef .tc main_v22))) (KArr.unrow128 (W1 m ρ c (Proc.devRef .tc main_v23)))
      (KArr.unrow128 (W1 m ρ c (Proc.devRef .tc main_v24))) (KArr.unrow128 (W1 m ρ c (Proc.devRef .tc main_v25))) = H1 m c
  rw [W1_v20, W1_arg0, W1_arg3, W1_arg4, row_main_v21, row_main_v22, row_main_v23, row_main_v24, row_main_v25]
  rfl

set_option maxHeartbeats 4000000 in
/-- Before the second kernel the host has formed the aggregate of the first hidden layer. -/
theorem W3_v38 (c : Dev nD) : W3 m ρ c (Proc.devRef .tc main_v38) = aggK (H1 m c) (m ((c : Thread nD τ).loc main_arg1)) (m ((c : Thread nD τ).loc main_arg2)) := by
  show StableHlo.after hostOps1 (W2 m ρ c) (Proc.devRef .tc main_v38) = _
  after_results_simp
  rw [W2_arg1, W2_arg2, W2_v8, W2_v26]
  rfl

theorem W3_v26 (c : Dev nD) : W3 m ρ c (Proc.devRef .tc main_v26) = H1 m c := by
  refine Eq.trans ?_ (W2_v26 m ρ c)
  show StableHlo.after hostOps1 (W2 m ρ c) (Proc.devRef .tc main_v26) = _
  unwritten hostOps1
theorem W3_arg10' (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = _
  unwritten hostOps1
theorem W3_arg11' (c : Dev nD) : W3 m ρ c (Proc.devRef .tc main_arg11) = m ((c : Thread nD τ).loc main_arg11) := by
  refine Eq.trans ?_ (W2_arg11 m ρ c)
  show StableHlo.after hostOps1 (W2 m ρ c) (Proc.devRef .tc main_arg11) = _
  unwritten hostOps1

/-- The second kernel's output array is the second hidden layer. -/
theorem W4_v44 (c : Dev nD) : W4 m ρ c (Proc.devRef .tc main_v44) = H2 m c := by
  refine (W4_arr m ρ c 9).trans ((KArr.array1 (V3 m ρ) c).trans ?_)
  show hidden (W3 m ρ c (Proc.devRef .tc main_v38)) (W3 m ρ c (Proc.devRef .tc main_v26)) (W3 m ρ c (Proc.devRef .tc main_arg10)) (W3 m ρ c (Proc.devRef .tc main_arg11))
      (KArr.unrow128 (W3 m ρ c (Proc.devRef .tc main_v39))) (KArr.unrow128 (W3 m ρ c (Proc.devRef .tc main_v40))) (KArr.unrow128 (W3 m ρ c (Proc.devRef .tc main_v41)))
      (KArr.unrow128 (W3 m ρ c (Proc.devRef .tc main_v42))) (KArr.unrow128 (W3 m ρ c (Proc.devRef .tc main_v43))) = H2 m c
  rw [W3_v38, W3_v26, W3_arg10', W3_arg11', row_main_v39, row_main_v40, row_main_v41, row_main_v42, row_main_v43]
  rfl

set_option maxHeartbeats 4000000 in
/-- Before the classifier's kernel the host has formed the aggregate of the second hidden layer. -/
theorem W5_v56 (c : Dev nD) : W5 m ρ c (Proc.devRef .tc main_v56) = aggK (H2 m c) (m ((c : Thread nD τ).loc main_arg1)) (m ((c : Thread nD τ).loc main_arg2)) := by
  show StableHlo.after hostOps2 (W4 m ρ c) (Proc.devRef .tc main_v56) = _
  after_results_simp
  rw [W4_arg1, W4_arg2, W4_v8, W4_v44]
  rfl

theorem W5_v44 (c : Dev nD) : W5 m ρ c (Proc.devRef .tc main_v44) = H2 m c := by
  refine Eq.trans ?_ (W4_v44 m ρ c)
  show StableHlo.after hostOps2 (W4 m ρ c) (Proc.devRef .tc main_v44) = _
  unwritten hostOps2
theorem W5_arg17 (c : Dev nD) : W5 m ρ c (Proc.devRef .tc main_arg17) = m ((c : Thread nD τ).loc main_arg17) := by
  refine Eq.trans ?_ (W4_arg17 m ρ c)
  show StableHlo.after hostOps2 (W4 m ρ c) (Proc.devRef .tc main_arg17) = _
  unwritten hostOps2
theorem W5_arg18 (c : Dev nD) : W5 m ρ c (Proc.devRef .tc main_arg18) = m ((c : Thread nD τ).loc main_arg18) := by
  refine Eq.trans ?_ (W4_arg18 m ρ c)
  show StableHlo.after hostOps2 (W4 m ρ c) (Proc.devRef .tc main_arg18) = _
  unwritten hostOps2

/-- THE KERNEL'S VALUE: the classifier kernel's output array, after the run, is the three-layer network of the launch
    memory. -/
theorem result (c : Dev nD) : (dat2 (V5 m ρ) c).arrAt 5 cfg2.N = OUT m c := by
  refine (KArr.array2 (V5 m ρ) c).trans ?_
  show classify (W5 m ρ c (Proc.devRef .tc main_v56)) (W5 m ρ c (Proc.devRef .tc main_v44)) (W5 m ρ c (Proc.devRef .tc main_arg17)) (W5 m ρ c (Proc.devRef .tc main_arg18))
      (KArr.unrow64 (W5 m ρ c (Proc.devRef .tc main_v57))) = OUT m c
  rw [W5_v56, W5_v44, W5_arg17, W5_arg18, row_main_v57]
  rfl

end Cert.Sage.KHost

end
-- ==== Proof.RefValue.lean ====
/-
  The reference network read layer by layer, on the extended reals.

  Each of the three layers takes an aggregate array (left unopened here: it is whatever the averaging over
  in-neighbours produced) and the previous layer's features.  At node r and output feature c the reference computes
      (Σ_k agg[r,k]·Wl[c,k] + b[c]) + Σ_k h[r,k]·Wr[c,k],
  that is, it adds the bias before the self term; commutativity and associativity of addition turn this into the
  specification's affine part.  A weight matrix enters through its transpose, so entry (k, c) of the transposed
  matrix is entry (c, k) of the matrix itself; a per-feature vector is spread first into one row and then down all
  rows, so at (r, c) it contributes its entry c.  The hidden layers then normalise, scale, shift and take the
  maximum with the zero word, which is 0.  The last layer takes each row's maximum as a fold from −∞ over the 64
  classes, takes the maximum with −∞ once more (which changes nothing), and subtracts the logarithm of the row's
  sum of exponentials, a sum that starts from the zero word.
-/
import proofs.«140391_j1838246003329_1_alg».proof.Proof.RefRead
import proofs.«140391_j1838246003329_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.Sage.Ref

open Cert.ReferenceIdeal Cert.ReferenceIdeal.Gen Cert.ReferenceIdeal.ReadP Idealize.ShloMosaic Idealize.ShloMosaic.ValueIdx

/-! ## One entry, bias first -/

/-- A hidden layer's entry with the bias added before the self term is the specification's entry. -/
theorem hiddenAt_bias_first (A H : SNxD.Idx → EReal) (Wl Wr : SDxD.Idx → EReal) (b g be rm rv : SD.Idx → EReal)
    (r : Fin 100000) (j : Fin 128) :
    max (((((∑ k : Fin 128, A (ix2 r k) * Wl (ix2 j k)) + b (ix1 j)) + ∑ k : Fin 128, H (ix2 r k) * Wr (ix2 j k))
        - rm (ix1 j)) * Ideal.rsqrt (rv (ix1 j) + eps) * g (ix1 j) + be (ix1 j)) 0
      = hiddenAt A H Wl Wr b g be rm rv r j := by
  unfold hiddenAt bnrelu
  rw [← lin_bias_first]

/-- The last layer's affine part with the bias added before the self term is the specification's. -/
theorem logitAt_bias_first (A H : SNxD.Idx → EReal) (Wl Wr : SOxD.Idx → EReal) (b : SO.Idx → EReal)
    (r : Fin 100000) (j : Fin 64) :
    ((∑ k : Fin 128, A (ix2 r k) * Wl (ix2 j k)) + b (ix1 j)) + ∑ k : Fin 128, H (ix2 r k) * Wr (ix2 j k)
      = logitAt A H Wl Wr b r j := by
  unfold logitAt
  rw [← lin_bias_first]

/-! ## A row's maximum -/

/-- Dropping the class axis of a [100000, 64] array leaves a [100000] array. -/
theorem reduces_row : S100000x64.Reduces [1] S100000 := by decide

/-- Node r with class k put back on the dropped axis is the entry (r, k). -/
theorem lift_row (h : S100000x64.Reduces [1] S100000) (r : Fin 100000) (k : Fin (S100000x64.size 1)) :
    h.lift (ix1 r) k = ix2 r (⟨k.val, k.isLt⟩ : Fin 64) := by
  funext c; apply Fin.ext
  fin_cases c <;> rfl

/-- From −∞, the reduction with a maximum body over the classes is, at node r, the fold of the maximum over row r. -/
theorem rowmax_of_reduce (Y : S100000x64.Idx → EReal) (r : Fin 100000) :
    Host.reduce (FloatOps.maximumf (F := Ideal) (φ := .f32)) Y (constant (F := Ideal) S_ .f32 0xFF800000#32)
        reducesTo_S100000x64_S100000_d1 h_S_ (ix1 r)
      = rowmax (fun k : Fin 64 => Y (ix2 r k)) := by
  rw [Host.reduce_eq_fold_single (FloatOps.maximumf (F := Ideal) (φ := .f32)) Y _ reducesTo_S100000x64_S100000_d1 reduces_row h_S_]
  unfold rowmax
  have hf : (Y ∘ reduces_row.lift (ix1 r)) = fun k : Fin 64 => Y (ix2 r k) :=
    funext fun k => congrArg Y (lift_row reduces_row r k)
  exact congrArg (fun f => Finset.fold max negInf f (Finset.univ : Finset (Fin 64))) hf

/-- A row's log-softmax entry as the reference spells it: one more maximum with −∞, and a sum started from the
    zero word. -/
theorem lsm_of_stages (y : Fin 64 → EReal) (j : Fin 64) :
    (y j - max negInf (rowmax y))
        - Ideal.log (Ideal.ofBits .f32 0x00000000#32 + ∑ k : Fin 64, Ideal.exp (y k - max negInf (rowmax y)))
      = lsm y j := by
  rw [max_negInf_rowmax, Ideal.ofBits_zero_f32, zero_add]
  rfl

/-! ## Where each entry is read

  Node r, feature c, contraction index k.  The left factor of a product is read at (r, k); the transposed weight
  matrix at (k, c) is the matrix at (c, k); a vector spread into a row and then down the rows is read at c. -/

section hiddenIdx
variable (r : Fin 100000) (c k : Fin 128)

theorem l20 : lidx_main_v20 (ix2 r c) k = ix2 r k := funext fun a => by match a with | ⟨0, _⟩ => rfl | ⟨1, _⟩ => rfl
theorem r20 : idx_main_v19 (ridx_main_v20 (ix2 r c) k) = ix2 c k := funext fun a => by match a with | ⟨0, _⟩ => rfl | ⟨1, _⟩ => rfl
theorem l25 : lidx_main_v25 (ix2 r c) k = ix2 r k := funext fun a => by match a with | ⟨0, _⟩ => rfl | ⟨1, _⟩ => rfl
theorem r25 : idx_main_v24 (ridx_main_v25 (ix2 r c) k) = ix2 c k := funext fun a => by match a with | ⟨0, _⟩ => rfl | ⟨1, _⟩ => rfl
theorem b22 : idx_main_v21 (idx_main_v22 (ix2 r c)) = ix1 c := funext fun a => by match a with | ⟨0, _⟩ => rfl
theorem b28 : idx_main_v27 (idx_main_v28 (ix2 r c)) = ix1 c := funext fun a => by match a with | ⟨0, _⟩ => rfl
theorem b34 : idx_main_v33 (idx_main_v34 (ix2 r c)) = ix1 c := funext fun a => by match a with | ⟨0, _⟩ => rfl
theorem b37 : idx_main_v36 (idx_main_v37 (ix2 r c)) = ix1 c := funext fun a => by match a with | ⟨0, _⟩ => rfl
theorem b40 : idx_main_v39 (idx_main_v40 (ix2 r c)) = ix1 c := funext fun a => by match a with | ⟨0, _⟩ => rfl

theorem l63 : lidx_main_v63 (ix2 r c) k = ix2 r k := funext fun a => by match a with | ⟨0, _⟩ => rfl | ⟨1, _⟩ => rfl
theorem r63 : idx_main_v62 (ridx_main_v63 (ix2 r c) k) = ix2 c k := funext fun a => by match a with | ⟨0, _⟩ => rfl | ⟨1, _⟩ => rfl
theorem l68 : lidx_main_v68 (ix2 r c) k = ix2 r k := funext fun a => by match a with | ⟨0, _⟩ => rfl | ⟨1, _⟩ => rfl
theorem r68 : idx_main_v67 (ridx_main_v68 (ix2 r c) k) = ix2 c k := funext fun a => by match a with | ⟨0, _⟩ => rfl | ⟨1, _⟩ => rfl
theorem b65 : idx_main_v64 (idx_main_v65 (ix2 r c)) = ix1 c := funext fun a => by match a with | ⟨0, _⟩ => rfl
theorem b71 : idx_main_v70 (idx_main_v71 (ix2 r c)) = ix1 c := funext fun a => by match a with | ⟨0, _⟩ => rfl
theorem b77 : idx_main_v76 (idx_main_v77 (ix2 r c)) = ix1 c := funext fun a => by match a with | ⟨0, _⟩ => rfl
theorem b80 : idx_main_v79 (idx_main_v80 (ix2 r c)) = ix1 c := funext fun a => by match a with | ⟨0, _⟩ => rfl
theorem b83 : idx_main_v82 (idx_main_v83 (ix2 r c)) = ix1 c := funext fun a => by match a with | ⟨0, _⟩ => rfl
end hiddenIdx

section classIdx
variable (r : Fin 100000) (c : Fin 64) (k : Fin 128) (q : Fin 64)

theorem l106 : lidx_main_v106 (ix2 r c) k = ix2 r k := funext fun a => by match a with | ⟨0, _⟩ => rfl | ⟨1, _⟩ => rfl
theorem r106 : idx_main_v105 (ridx_main_v106 (ix2 r c) k) = ix2 c k := funext fun a => by match a with | ⟨0, _⟩ => rfl | ⟨1, _⟩ => rfl
theorem l111 : lidx_main_v111 (ix2 r c) k = ix2 r k := funext fun a => by match a with | ⟨0, _⟩ => rfl | ⟨1, _⟩ => rfl
theorem r111 : idx_main_v110 (ridx_main_v111 (ix2 r c) k) = ix2 c k := funext fun a => by match a with | ⟨0, _⟩ => rfl | ⟨1, _⟩ => rfl
theorem b108 : idx_main_v107 (idx_main_v108 (ix2 r c)) = ix1 c := funext fun a => by match a with | ⟨0, _⟩ => rfl
/-- A per-node value spread into a column and then across the classes is read at the node. -/
theorem n4 : idx_main_call2_v3 (idx_main_call2_v4 (ix2 r c)) = ix1 r := funext fun a => by match a with | ⟨0, _⟩ => rfl
theorem n10 : idx_main_call2_v8 (idx_main_call2_v10 (ix2 r c)) = ix1 r := funext fun a => by match a with | ⟨0, _⟩ => rfl
/-- The q-th term of node r's sum over the classes is the entry (r, q). -/
theorem s7 : idx_main_call2_v7 (ix1 r) q = ix2 r q := funext fun a => by match a with | ⟨0, _⟩ => rfl | ⟨1, _⟩ => rfl
end classIdx

/-! ## The three layers

  Each proof reads the layer's result at node r, feature c down to the entries of its operands, names the aggregate
  (and the earlier layer's features) as opaque arrays, and ends with the bias-first law. -/

variable (x0 : (⟨S100000x128, .f32⟩ : BufTy).Contents (Elt Ideal)) (x1 x2 : (⟨S1600000, .i32⟩ : BufTy).Contents (Elt Ideal))
  (x3 x4 : (⟨S128x128, .f32⟩ : BufTy).Contents (Elt Ideal)) (x5 x6 x7 x8 x9 : (⟨S128, .f32⟩ : BufTy).Contents (Elt Ideal))
  (x10 x11 : (⟨S128x128, .f32⟩ : BufTy).Contents (Elt Ideal)) (x12 x13 x14 x15 x16 : (⟨S128, .f32⟩ : BufTy).Contents (Elt Ideal))
  (x17 x18 : (⟨S64x128, .f32⟩ : BufTy).Contents (Elt Ideal)) (x19 : (⟨S64, .f32⟩ : BufTy).Contents (Elt Ideal))

/-- The first layer: from the first aggregate and the input features to the first hidden features. -/
theorem layer1 :
    val_main_v42 (F := Ideal) x0 x1 x2 x3 x4 x5 x6 x7 x8 x9
      = Cert.Sage.hidden (val_main_v18 (F := Ideal) x0 x1 x2) x0 x3 x4 x5 x6 x7 x8 x9 := by
  funext i
  obtain ⟨r, c, rfl⟩ : ∃ (r : Fin 100000) (c : Fin 128), i = ix2 r c := ⟨i 0, i 1, eq_ix2 i⟩
  rw [val_main_v42_apply, val_main_v41_apply, val_main_v38_apply, val_main_v35_apply, val_main_v29_apply, val_main_v26_apply, val_main_v23_apply]
  rw [val_main_v20_apply, val_main_v25_apply, val_main_v22_apply, val_main_v21_apply, val_main_v28_apply, val_main_v27_apply, val_main_v34_apply, val_main_v33_apply, val_main_v32_apply, val_main_v31_apply, val_main_v30_apply, val_main_cst_4_apply, val_main_v37_apply, val_main_v36_apply, val_main_v40_apply, val_main_v39_apply, val_main_call0_v0_apply, val_main_call0_cst_apply]
  rw [b22, b28, b34, b37, b40]
  generalize val_main_v18 (F := Ideal) x0 x1 x2 = A
  simp only [val_main_v19_apply, val_main_v24_apply, l20, r20, l25, r25]
  simp only [Ideal.maximumf_def, Ideal.addf_def, Ideal.mulf_def, Ideal.subf_def, Ideal.hostUnary_rsqrt_def, Ideal.ofBits_def, Ideal.ofBits_zero_f32]
  exact hiddenAt_bias_first A x0 x3 x4 x5 x6 x7 x8 x9 r c

/-- The second layer: from the second aggregate and the first hidden features to the second hidden features. -/
theorem layer2 :
    val_main_v85 (F := Ideal) x0 x1 x2 x3 x4 x5 x6 x7 x8 x9 x10 x11 x12 x13 x14 x15 x16
      = Cert.Sage.hidden (val_main_v61 (F := Ideal) x0 x1 x2 x3 x4 x5 x6 x7 x8 x9) (val_main_v42 (F := Ideal) x0 x1 x2 x3 x4 x5 x6 x7 x8 x9)
          x10 x11 x12 x13 x14 x15 x16 := by
  funext i
  obtain ⟨r, c, rfl⟩ : ∃ (r : Fin 100000) (c : Fin 128), i = ix2 r c := ⟨i 0, i 1, eq_ix2 i⟩
  rw [val_main_v85_apply, val_main_v84_apply, val_main_v81_apply, val_main_v78_apply, val_main_v72_apply, val_main_v69_apply, val_main_v66_apply]
  rw [val_main_v63_apply, val_main_v68_apply, val_main_v65_apply, val_main_v64_apply, val_main_v71_apply, val_main_v70_apply, val_main_v77_apply, val_main_v76_apply, val_main_v75_apply, val_main_v74_apply, val_main_v73_apply, val_main_cst_11_apply, val_main_v80_apply, val_main_v79_apply, val_main_v83_apply, val_main_v82_apply, val_main_call1_v0_apply, val_main_call1_cst_apply]
  rw [b65, b71, b77, b80, b83]
  generalize val_main_v61 (F := Ideal) x0 x1 x2 x3 x4 x5 x6 x7 x8 x9 = A
  generalize val_main_v42 (F := Ideal) x0 x1 x2 x3 x4 x5 x6 x7 x8 x9 = H
  simp only [val_main_v62_apply, val_main_v67_apply, l63, r63, l68, r68]
  simp only [Ideal.maximumf_def, Ideal.addf_def, Ideal.mulf_def, Ideal.subf_def, Ideal.hostUnary_rsqrt_def, Ideal.ofBits_def, Ideal.ofBits_zero_f32]
  exact hiddenAt_bias_first A H x10 x11 x12 x13 x14 x15 x16 r c

/-- The last layer's affine part, entry by entry. -/
theorem logits_entry (r : Fin 100000) (c : Fin 64) :
    val_main_v112 (F := Ideal) x0 x1 x2 x3 x4 x5 x6 x7 x8 x9 x10 x11 x12 x13 x14 x15 x16 x17 x18 x19 (ix2 r c)
      = logitAt (val_main_v104 (F := Ideal) x0 x1 x2 x3 x4 x5 x6 x7 x8 x9 x10 x11 x12 x13 x14 x15 x16) (val_main_v85 (F := Ideal) x0 x1 x2 x3 x4 x5 x6 x7 x8 x9 x10 x11 x12 x13 x14 x15 x16) x17 x18 x19 r c := by
  rw [val_main_v112_apply, val_main_v109_apply]
  rw [val_main_v106_apply, val_main_v111_apply, val_main_v108_apply, val_main_v107_apply]
  rw [b108]
  generalize val_main_v104 (F := Ideal) x0 x1 x2 x3 x4 x5 x6 x7 x8 x9 x10 x11 x12 x13 x14 x15 x16 = A
  generalize val_main_v85 (F := Ideal) x0 x1 x2 x3 x4 x5 x6 x7 x8 x9 x10 x11 x12 x13 x14 x15 x16 = H
  simp only [val_main_v105_apply, val_main_v110_apply, l106, r106, l111, r111]
  simp only [Ideal.addf_def]
  exact logitAt_bias_first A H x17 x18 x19 r c

/-- An entry of the affine part minus its row's maximum: the maximum is the fold from −∞ over the row, taken once
    more against −∞. -/
theorem shifted_entry (r : Fin 100000) (q : Fin 64) :
    val_main_call2_v5 (F := Ideal) x0 x1 x2 x3 x4 x5 x6 x7 x8 x9 x10 x11 x12 x13 x14 x15 x16 x17 x18 x19 (ix2 r q)
      = val_main_v112 (F := Ideal) x0 x1 x2 x3 x4 x5 x6 x7 x8 x9 x10 x11 x12 x13 x14 x15 x16 x17 x18 x19 (ix2 r q)
          - max negInf (rowmax (fun k : Fin 64 => val_main_v112 (F := Ideal) x0 x1 x2 x3 x4 x5 x6 x7 x8 x9 x10 x11 x12 x13 x14 x15 x16 x17 x18 x19 (ix2 r k))) := by
  rw [val_main_call2_v5_apply, val_main_call2_v4_apply, val_main_call2_v3_apply]
  rw [n4]
  rw [val_main_call2_v2_apply, val_main_call2_v1_apply, val_main_call2_cst_0_apply]
  unfold val_main_call2_v0 val_main_call2_cst
  generalize val_main_v112 (F := Ideal) x0 x1 x2 x3 x4 x5 x6 x7 x8 x9 x10 x11 x12 x13 x14 x15 x16 x17 x18 x19 = Y
  rw [rowmax_of_reduce Y r]
  rfl

/-- The last layer's result at (r, c) is the log-softmax of row r of its affine part, at class c. -/
theorem softmax_of_logits (r : Fin 100000) (c : Fin 64) :
    val_main_v113 (F := Ideal) x0 x1 x2 x3 x4 x5 x6 x7 x8 x9 x10 x11 x12 x13 x14 x15 x16 x17 x18 x19 (ix2 r c)
      = lsm (fun j : Fin 64 => val_main_v112 (F := Ideal) x0 x1 x2 x3 x4 x5 x6 x7 x8 x9 x10 x11 x12 x13 x14 x15 x16 x17 x18 x19 (ix2 r j)) c := by
  rw [val_main_v113_apply, val_main_call2_v10_apply, val_main_call2_v9_apply, val_main_call2_v8_apply]
  rw [n10]
  rw [val_main_call2_v7_apply, val_main_call2_cst_1_apply]
  rw [shifted_entry]
  have hs : ∀ q : Fin 64, val_main_call2_v6 (F := Ideal) x0 x1 x2 x3 x4 x5 x6 x7 x8 x9 x10 x11 x12 x13 x14 x15 x16 x17 x18 x19 (idx_main_call2_v7 (ix1 r) q)
      = Ideal.exp (val_main_v112 (F := Ideal) x0 x1 x2 x3 x4 x5 x6 x7 x8 x9 x10 x11 x12 x13 x14 x15 x16 x17 x18 x19 (ix2 r q)
          - max negInf (rowmax (fun k : Fin 64 => val_main_v112 (F := Ideal) x0 x1 x2 x3 x4 x5 x6 x7 x8 x9 x10 x11 x12 x13 x14 x15 x16 x17 x18 x19 (ix2 r k)))) := fun q => by
    rw [s7, val_main_call2_v6_apply, shifted_entry]
    exact Ideal.hostUnary_exp_def _
  rw [Finset.sum_congr rfl (fun q _ => hs q)]
  generalize val_main_v112 (F := Ideal) x0 x1 x2 x3 x4 x5 x6 x7 x8 x9 x10 x11 x12 x13 x14 x15 x16 x17 x18 x19 = Y
  exact lsm_of_stages (fun k : Fin 64 => Y (ix2 r k)) c

/-- The last layer: from the third aggregate and the second hidden features to the class log-probabilities. -/
theorem layer3 :
    val_main_v113 (F := Ideal) x0 x1 x2 x3 x4 x5 x6 x7 x8 x9 x10 x11 x12 x13 x14 x15 x16 x17 x18 x19
      = Cert.Sage.classify (val_main_v104 (F := Ideal) x0 x1 x2 x3 x4 x5 x6 x7 x8 x9 x10 x11 x12 x13 x14 x15 x16) (val_main_v85 (F := Ideal) x0 x1 x2 x3 x4 x5 x6 x7 x8 x9 x10 x11 x12 x13 x14 x15 x16) x17 x18 x19 := by
  funext i
  obtain ⟨r, c, rfl⟩ : ∃ (r : Fin 100000) (c : Fin 64), i = ix2 r c := ⟨i 0, i 1, eq_ix2 i⟩
  rw [softmax_of_logits x0 x1 x2 x3 x4 x5 x6 x7 x8 x9 x10 x11 x12 x13 x14 x15 x16 x17 x18 x19 r c]
  have e : (fun j : Fin 64 => val_main_v112 (F := Ideal) x0 x1 x2 x3 x4 x5 x6 x7 x8 x9 x10 x11 x12 x13 x14 x15 x16 x17 x18 x19 (ix2 r j))
      = fun j : Fin 64 => logitAt (val_main_v104 (F := Ideal) x0 x1 x2 x3 x4 x5 x6 x7 x8 x9 x10 x11 x12 x13 x14 x15 x16) (val_main_v85 (F := Ideal) x0 x1 x2 x3 x4 x5 x6 x7 x8 x9 x10 x11 x12 x13 x14 x15 x16) x17 x18 x19 r j :=
    funext fun j => logits_entry x0 x1 x2 x3 x4 x5 x6 x7 x8 x9 x10 x11 x12 x13 x14 x15 x16 x17 x18 x19 r j
  rw [e]
  generalize val_main_v104 (F := Ideal) x0 x1 x2 x3 x4 x5 x6 x7 x8 x9 x10 x11 x12 x13 x14 x15 x16 = A
  generalize val_main_v85 (F := Ideal) x0 x1 x2 x3 x4 x5 x6 x7 x8 x9 x10 x11 x12 x13 x14 x15 x16 = H
  rfl

end Cert.Sage.Ref

end
-- ==== Proof.RefEval.lean ====
/-
  The reference's run, evaluated.

  The reference is a straight line of 152 host operations; after it every buffer holds the fold of the operations over
  the launch contents.  The fold is read here in three stretches — the first hidden layer (operations 1–52), the second
  (53–104), the classifier (105–152): each stretch's result is the stage function of the arguments, the previous
  stretch's result entering as ONE value (it is used several times — gathered along the edges, multiplied by the self
  weights, and for the classifier once more inside the log-softmax — and is never written out again per use); an
  argument is written by no operation and passes through every stretch.
-/
import proofs.«140391_j1838246003329_1_alg».proof.Proof.RefRead
import Idealize.ShloMosaic.Lib.StableHlo.Run
import Idealize.ShloMosaic.PureOps.Ideal

set_option maxRecDepth 16384

noncomputable section

namespace Cert.Sage.RefEval

open Cert.ReferenceIdeal Cert.ReferenceIdeal.ValueP Cert.ReferenceIdeal.ReadP
open Idealize.ShloMosaic Idealize.ShloMosaic.TcCoe Idealize.SL.Sem Idealize.ShloMosaic.StableHlo

/-- Running two lists of operations one after the other is running their concatenation. -/
theorem after_append (l1 l2 : List (HloOp τ sig (Elt Ideal))) (V : Valuation τ sig (Elt Ideal)) :
    after (l1 ++ l2) V = after l2 (after l1 V) := by
  induction l1 generalizing V with
  | nil => rfl
  | cons op l ih => exact ih _

/-- The whole line is its three stretches in order. -/
theorem after_ops (W : Valuation τ sig (Elt Ideal)) :
    after (ops (F := Ideal)) W = after (((ops (F := Ideal)).drop 52).drop 52) (after (((ops (F := Ideal)).drop 52).take 52) (after ((ops (F := Ideal)).take 52) W)) := by
  have e : ops (F := Ideal) = ((ops (F := Ideal)).take 52) ++ ((((ops (F := Ideal)).drop 52).take 52) ++ (((ops (F := Ideal)).drop 52).drop 52)) := by
    rw [List.take_append_drop, List.take_append_drop]
  exact (congrArg (fun l => after l W) e).trans ((after_append _ _ _).trans (after_append _ _ _))

/-! ## The calls' value transports

  A module-local function's operations (the two rectifiers, the log-softmax) move each value between its tensor type and
  its buffer's type; for these buffers the two types are one, and the transport is the identity. -/

theorem toBuf_main_v41 (v : (⟨S100000x128, .f32⟩ : BufTy).Contents (Elt Ideal)) :
    (TRef.of main_v41 : TRef sig ⟨S100000x128, .f32⟩).toBuf v = v := rfl
theorem ofBuf_main_v41 (v : (⟨S100000x128, .f32⟩ : BufTy).Contents (Elt Ideal)) :
    (TRef.of main_v41 : TRef sig ⟨S100000x128, .f32⟩).ofBuf v = v := rfl
theorem toBuf_main_v42 (v : (⟨S100000x128, .f32⟩ : BufTy).Contents (Elt Ideal)) :
    (TRef.of main_v42 : TRef sig ⟨S100000x128, .f32⟩).toBuf v = v := rfl
theorem ofBuf_main_v42 (v : (⟨S100000x128, .f32⟩ : BufTy).Contents (Elt Ideal)) :
    (TRef.of main_v42 : TRef sig ⟨S100000x128, .f32⟩).ofBuf v = v := rfl
theorem toBuf_main_call0_v0 (v : (⟨S100000x128, .f32⟩ : BufTy).Contents (Elt Ideal)) :
    (TRef.of main_call0_v0 : TRef sig ⟨S100000x128, .f32⟩).toBuf v = v := rfl
theorem ofBuf_main_call0_v0 (v : (⟨S100000x128, .f32⟩ : BufTy).Contents (Elt Ideal)) :
    (TRef.of main_call0_v0 : TRef sig ⟨S100000x128, .f32⟩).ofBuf v = v := rfl
theorem toBuf_main_call0_cst (v : (⟨S_, .f32⟩ : BufTy).Contents (Elt Ideal)) :
    (TRef.of main_call0_cst : TRef sig ⟨S_, .f32⟩).toBuf v = v := rfl
theorem ofBuf_main_call0_cst (v : (⟨S_, .f32⟩ : BufTy).Contents (Elt Ideal)) :
    (TRef.of main_call0_cst : TRef sig ⟨S_, .f32⟩).ofBuf v = v := rfl
theorem toBuf_main_v84 (v : (⟨S100000x128, .f32⟩ : BufTy).Contents (Elt Ideal)) :
    (TRef.of main_v84 : TRef sig ⟨S100000x128, .f32⟩).toBuf v = v := rfl
theorem ofBuf_main_v84 (v : (⟨S100000x128, .f32⟩ : BufTy).Contents (Elt Ideal)) :
    (TRef.of main_v84 : TRef sig ⟨S100000x128, .f32⟩).ofBuf v = v := rfl
theorem toBuf_main_v85 (v : (⟨S100000x128, .f32⟩ : BufTy).Contents (Elt Ideal)) :
    (TRef.of main_v85 : TRef sig ⟨S100000x128, .f32⟩).toBuf v = v := rfl
theorem ofBuf_main_v85 (v : (⟨S100000x128, .f32⟩ : BufTy).Contents (Elt Ideal)) :
    (TRef.of main_v85 : TRef sig ⟨S100000x128, .f32⟩).ofBuf v = v := rfl
theorem toBuf_main_call1_v0 (v : (⟨S100000x128, .f32⟩ : BufTy).Contents (Elt Ideal)) :
    (TRef.of main_call1_v0 : TRef sig ⟨S100000x128, .f32⟩).toBuf v = v := rfl
theorem ofBuf_main_call1_v0 (v : (⟨S100000x128, .f32⟩ : BufTy).Contents (Elt Ideal)) :
    (TRef.of main_call1_v0 : TRef sig ⟨S100000x128, .f32⟩).ofBuf v = v := rfl
theorem toBuf_main_call1_cst (v : (⟨S_, .f32⟩ : BufTy).Contents (Elt Ideal)) :
    (TRef.of main_call1_cst : TRef sig ⟨S_, .f32⟩).toBuf v = v := rfl
theorem ofBuf_main_call1_cst (v : (⟨S_, .f32⟩ : BufTy).Contents (Elt Ideal)) :
    (TRef.of main_call1_cst : TRef sig ⟨S_, .f32⟩).ofBuf v = v := rfl
theorem toBuf_main_v112 (v : (⟨S100000x64, .f32⟩ : BufTy).Contents (Elt Ideal)) :
    (TRef.of main_v112 : TRef sig ⟨S100000x64, .f32⟩).toBuf v = v := rfl
theorem ofBuf_main_v112 (v : (⟨S100000x64, .f32⟩ : BufTy).Contents (Elt Ideal)) :
    (TRef.of main_v112 : TRef sig ⟨S100000x64, .f32⟩).ofBuf v = v := rfl
theorem toBuf_main_v113 (v : (⟨S100000x64, .f32⟩ : BufTy).Contents (Elt Ideal)) :
    (TRef.of main_v113 : TRef sig ⟨S100000x64, .f32⟩).toBuf v = v := rfl
theorem ofBuf_main_v113 (v : (⟨S100000x64, .f32⟩ : BufTy).Contents (Elt Ideal)) :
    (TRef.of main_v113 : TRef sig ⟨S100000x64, .f32⟩).ofBuf v = v := rfl
theorem toBuf_main_call2_cst (v : (⟨S_, .f32⟩ : BufTy).Contents (Elt Ideal)) :
    (TRef.of main_call2_cst : TRef sig ⟨S_, .f32⟩).toBuf v = v := rfl
theorem ofBuf_main_call2_cst (v : (⟨S_, .f32⟩ : BufTy).Contents (Elt Ideal)) :
    (TRef.of main_call2_cst : TRef sig ⟨S_, .f32⟩).ofBuf v = v := rfl
theorem toBuf_main_call2_v0 (v : (⟨S100000, .f32⟩ : BufTy).Contents (Elt Ideal)) :
    (TRef.of main_call2_v0 : TRef sig ⟨S100000, .f32⟩).toBuf v = v := rfl
theorem ofBuf_main_call2_v0 (v : (⟨S100000, .f32⟩ : BufTy).Contents (Elt Ideal)) :
    (TRef.of main_call2_v0 : TRef sig ⟨S100000, .f32⟩).ofBuf v = v := rfl
theorem toBuf_main_call2_cst_0 (v : (⟨S_, .f32⟩ : BufTy).Contents (Elt Ideal)) :
    (TRef.of main_call2_cst_0 : TRef sig ⟨S_, .f32⟩).toBuf v = v := rfl
theorem ofBuf_main_call2_cst_0 (v : (⟨S_, .f32⟩ : BufTy).Contents (Elt Ideal)) :
    (TRef.of main_call2_cst_0 : TRef sig ⟨S_, .f32⟩).ofBuf v = v := rfl
theorem toBuf_main_call2_v1 (v : (⟨S100000, .f32⟩ : BufTy).Contents (Elt Ideal)) :
    (TRef.of main_call2_v1 : TRef sig ⟨S100000, .f32⟩).toBuf v = v := rfl
theorem ofBuf_main_call2_v1 (v : (⟨S100000, .f32⟩ : BufTy).Contents (Elt Ideal)) :
    (TRef.of main_call2_v1 : TRef sig ⟨S100000, .f32⟩).ofBuf v = v := rfl
theorem toBuf_main_call2_v2 (v : (⟨S100000, .f32⟩ : BufTy).Contents (Elt Ideal)) :
    (TRef.of main_call2_v2 : TRef sig ⟨S100000, .f32⟩).toBuf v = v := rfl
theorem ofBuf_main_call2_v2 (v : (⟨S100000, .f32⟩ : BufTy).Contents (Elt Ideal)) :
    (TRef.of main_call2_v2 : TRef sig ⟨S100000, .f32⟩).ofBuf v = v := rfl
theorem toBuf_main_call2_v3 (v : (⟨S100000x1, .f32⟩ : BufTy).Contents (Elt Ideal)) :
    (TRef.of main_call2_v3 : TRef sig ⟨S100000x1, .f32⟩).toBuf v = v := rfl
theorem ofBuf_main_call2_v3 (v : (⟨S100000x1, .f32⟩ : BufTy).Contents (Elt Ideal)) :
    (TRef.of main_call2_v3 : TRef sig ⟨S100000x1, .f32⟩).ofBuf v = v := rfl
theorem toBuf_main_call2_v4 (v : (⟨S100000x64, .f32⟩ : BufTy).Contents (Elt Ideal)) :
    (TRef.of main_call2_v4 : TRef sig ⟨S100000x64, .f32⟩).toBuf v = v := rfl
theorem ofBuf_main_call2_v4 (v : (⟨S100000x64, .f32⟩ : BufTy).Contents (Elt Ideal)) :
    (TRef.of main_call2_v4 : TRef sig ⟨S100000x64, .f32⟩).ofBuf v = v := rfl
theorem toBuf_main_call2_v5 (v : (⟨S100000x64, .f32⟩ : BufTy).Contents (Elt Ideal)) :
    (TRef.of main_call2_v5 : TRef sig ⟨S100000x64, .f32⟩).toBuf v = v := rfl
theorem ofBuf_main_call2_v5 (v : (⟨S100000x64, .f32⟩ : BufTy).Contents (Elt Ideal)) :
    (TRef.of main_call2_v5 : TRef sig ⟨S100000x64, .f32⟩).ofBuf v = v := rfl
theorem toBuf_main_call2_v6 (v : (⟨S100000x64, .f32⟩ : BufTy).Contents (Elt Ideal)) :
    (TRef.of main_call2_v6 : TRef sig ⟨S100000x64, .f32⟩).toBuf v = v := rfl
theorem ofBuf_main_call2_v6 (v : (⟨S100000x64, .f32⟩ : BufTy).Contents (Elt Ideal)) :
    (TRef.of main_call2_v6 : TRef sig ⟨S100000x64, .f32⟩).ofBuf v = v := rfl
theorem toBuf_main_call2_cst_1 (v : (⟨S_, .f32⟩ : BufTy).Contents (Elt Ideal)) :
    (TRef.of main_call2_cst_1 : TRef sig ⟨S_, .f32⟩).toBuf v = v := rfl
theorem ofBuf_main_call2_cst_1 (v : (⟨S_, .f32⟩ : BufTy).Contents (Elt Ideal)) :
    (TRef.of main_call2_cst_1 : TRef sig ⟨S_, .f32⟩).ofBuf v = v := rfl
theorem toBuf_main_call2_v7 (v : (⟨S100000, .f32⟩ : BufTy).Contents (Elt Ideal)) :
    (TRef.of main_call2_v7 : TRef sig ⟨S100000, .f32⟩).toBuf v = v := rfl
theorem ofBuf_main_call2_v7 (v : (⟨S100000, .f32⟩ : BufTy).Contents (Elt Ideal)) :
    (TRef.of main_call2_v7 : TRef sig ⟨S100000, .f32⟩).ofBuf v = v := rfl
theorem toBuf_main_call2_v8 (v : (⟨S100000x1, .f32⟩ : BufTy).Contents (Elt Ideal)) :
    (TRef.of main_call2_v8 : TRef sig ⟨S100000x1, .f32⟩).toBuf v = v := rfl
theorem ofBuf_main_call2_v8 (v : (⟨S100000x1, .f32⟩ : BufTy).Contents (Elt Ideal)) :
    (TRef.of main_call2_v8 : TRef sig ⟨S100000x1, .f32⟩).ofBuf v = v := rfl
theorem toBuf_main_call2_v9 (v : (⟨S100000x1, .f32⟩ : BufTy).Contents (Elt Ideal)) :
    (TRef.of main_call2_v9 : TRef sig ⟨S100000x1, .f32⟩).toBuf v = v := rfl
theorem ofBuf_main_call2_v9 (v : (⟨S100000x1, .f32⟩ : BufTy).Contents (Elt Ideal)) :
    (TRef.of main_call2_v9 : TRef sig ⟨S100000x1, .f32⟩).ofBuf v = v := rfl
theorem toBuf_main_call2_v10 (v : (⟨S100000x64, .f32⟩ : BufTy).Contents (Elt Ideal)) :
    (TRef.of main_call2_v10 : TRef sig ⟨S100000x64, .f32⟩).toBuf v = v := rfl
theorem ofBuf_main_call2_v10 (v : (⟨S100000x64, .f32⟩ : BufTy).Contents (Elt Ideal)) :
    (TRef.of main_call2_v10 : TRef sig ⟨S100000x64, .f32⟩).ofBuf v = v := rfl

/-! ## The first stretch -/

set_option maxHeartbeats 4000000 in
theorem layer1 (W : Valuation τ sig (Elt Ideal)) :
    after ((ops (F := Ideal)).take 52) W (Proc.devRef .tc main_v42) = val_main_v42 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  simp only [ops, List.take_succ_cons, List.take_zero, List.drop_succ_cons, List.drop_zero]
  after_results_simp
  unfold val_main_v42 val_main_call0_v0 val_main_call0_cst val_main_v41 val_main_v40 val_main_v39 val_main_v38 val_main_v37 val_main_v36 val_main_v35 val_main_v34 val_main_v33 val_main_v32 val_main_v31 val_main_v30 val_main_cst_4 val_main_v29 val_main_v28 val_main_v27 val_main_v26 val_main_v25 val_main_v24 val_main_v23 val_main_v22 val_main_v21 val_main_v20 val_main_v19 val_main_v18 val_main_v17 val_main_v16 val_main_v15 val_main_v14 val_main_cst_3 val_main_v13 val_main_v12 val_main_v11 val_main_cst_2 val_main_v10 val_main_cst_1 val_main_v9 val_main_v8 val_main_v7 val_main_cst val_main_v6 val_main_v5 val_main_v4 val_main_v3 val_main_v2 val_main_c_0 val_main_v1 val_main_v0 val_main_c
  try rw [toBuf_main_v42]
  try rw [ofBuf_main_v42]
  try rw [toBuf_main_v41]
  try rw [ofBuf_main_v41]
  try rw [toBuf_main_call0_v0]
  try rw [ofBuf_main_call0_v0]
  try rw [toBuf_main_call0_cst]
  try rw [ofBuf_main_call0_cst]
  try (with_reducible rfl)

set_option maxHeartbeats 4000000 in
theorem keep1_1 (W : Valuation τ sig (Elt Ideal)) : after ((ops (F := Ideal)).take 52) W (Proc.devRef .tc main_arg1) = W (Proc.devRef .tc main_arg1) := by
  simp only [ops, List.take_succ_cons, List.take_zero, List.drop_succ_cons, List.drop_zero]
  after_results_simp
set_option maxHeartbeats 4000000 in
theorem keep1_2 (W : Valuation τ sig (Elt Ideal)) : after ((ops (F := Ideal)).take 52) W (Proc.devRef .tc main_arg2) = W (Proc.devRef .tc main_arg2) := by
  simp only [ops, List.take_succ_cons, List.take_zero, List.drop_succ_cons, List.drop_zero]
  after_results_simp
set_option maxHeartbeats 4000000 in
theorem keep1_10 (W : Valuation τ sig (Elt Ideal)) : after ((ops (F := Ideal)).take 52) W (Proc.devRef .tc main_arg10) = W (Proc.devRef .tc main_arg10) := by
  simp only [ops, List.take_succ_cons, List.take_zero, List.drop_succ_cons, List.drop_zero]
  after_results_simp
set_option maxHeartbeats 4000000 in
theorem keep1_11 (W : Valuation τ sig (Elt Ideal)) : after ((ops (F := Ideal)).take 52) W (Proc.devRef .tc main_arg11) = W (Proc.devRef .tc main_arg11) := by
  simp only [ops, List.take_succ_cons, List.take_zero, List.drop_succ_cons, List.drop_zero]
  after_results_simp
set_option maxHeartbeats 4000000 in
theorem keep1_12 (W : Valuation τ sig (Elt Ideal)) : after ((ops (F := Ideal)).take 52) W (Proc.devRef .tc main_arg12) = W (Proc.devRef .tc main_arg12) := by
  simp only [ops, List.take_succ_cons, List.take_zero, List.drop_succ_cons, List.drop_zero]
  after_results_simp
set_option maxHeartbeats 4000000 in
theorem keep1_13 (W : Valuation τ sig (Elt Ideal)) : after ((ops (F := Ideal)).take 52) W (Proc.devRef .tc main_arg13) = W (Proc.devRef .tc main_arg13) := by
  simp only [ops, List.take_succ_cons, List.take_zero, List.drop_succ_cons, List.drop_zero]
  after_results_simp
set_option maxHeartbeats 4000000 in
theorem keep1_14 (W : Valuation τ sig (Elt Ideal)) : after ((ops (F := Ideal)).take 52) W (Proc.devRef .tc main_arg14) = W (Proc.devRef .tc main_arg14) := by
  simp only [ops, List.take_succ_cons, List.take_zero, List.drop_succ_cons, List.drop_zero]
  after_results_simp
set_option maxHeartbeats 4000000 in
theorem keep1_15 (W : Valuation τ sig (Elt Ideal)) : after ((ops (F := Ideal)).take 52) W (Proc.devRef .tc main_arg15) = W (Proc.devRef .tc main_arg15) := by
  simp only [ops, List.take_succ_cons, List.take_zero, List.drop_succ_cons, List.drop_zero]
  after_results_simp
set_option maxHeartbeats 4000000 in
theorem keep1_16 (W : Valuation τ sig (Elt Ideal)) : after ((ops (F := Ideal)).take 52) W (Proc.devRef .tc main_arg16) = W (Proc.devRef .tc main_arg16) := by
  simp only [ops, List.take_succ_cons, List.take_zero, List.drop_succ_cons, List.drop_zero]
  after_results_simp
set_option maxHeartbeats 4000000 in
theorem keep1_17 (W : Valuation τ sig (Elt Ideal)) : after ((ops (F := Ideal)).take 52) W (Proc.devRef .tc main_arg17) = W (Proc.devRef .tc main_arg17) := by
  simp only [ops, List.take_succ_cons, List.take_zero, List.drop_succ_cons, List.drop_zero]
  after_results_simp
set_option maxHeartbeats 4000000 in
theorem keep1_18 (W : Valuation τ sig (Elt Ideal)) : after ((ops (F := Ideal)).take 52) W (Proc.devRef .tc main_arg18) = W (Proc.devRef .tc main_arg18) := by
  simp only [ops, List.take_succ_cons, List.take_zero, List.drop_succ_cons, List.drop_zero]
  after_results_simp
set_option maxHeartbeats 4000000 in
theorem keep1_19 (W : Valuation τ sig (Elt Ideal)) : after ((ops (F := Ideal)).take 52) W (Proc.devRef .tc main_arg19) = W (Proc.devRef .tc main_arg19) := by
  simp only [ops, List.take_succ_cons, List.take_zero, List.drop_succ_cons, List.drop_zero]
  after_results_simp

/-! ## The second stretch -/

set_option maxHeartbeats 4000000 in
theorem layer2 (W : Valuation τ sig (Elt Ideal)) :
    after (((ops (F := Ideal)).drop 52).take 52) (after ((ops (F := Ideal)).take 52) W) (Proc.devRef .tc main_v85) = val_main_v85 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  have h42 := layer1 W
  have h1 := keep1_1 W
  have h2 := keep1_2 W
  have h10 := keep1_10 W
  have h11 := keep1_11 W
  have h12 := keep1_12 W
  have h13 := keep1_13 W
  have h14 := keep1_14 W
  have h15 := keep1_15 W
  have h16 := keep1_16 W
  generalize after ((ops (F := Ideal)).take 52) W = W1 at h42 h1 h2 h10 h11 h12 h13 h14 h15 h16 ⊢
  simp only [ops, List.take_succ_cons, List.take_zero, List.drop_succ_cons, List.drop_zero]
  after_results_simp
  rw [h42, h1, h2, h10, h11, h12, h13, h14, h15, h16]
  unfold val_main_v85 val_main_call1_v0 val_main_call1_cst val_main_v84 val_main_v83 val_main_v82 val_main_v81 val_main_v80 val_main_v79 val_main_v78 val_main_v77 val_main_v76 val_main_v75 val_main_v74 val_main_v73 val_main_cst_11 val_main_v72 val_main_v71 val_main_v70 val_main_v69 val_main_v68 val_main_v67 val_main_v66 val_main_v65 val_main_v64 val_main_v63 val_main_v62 val_main_v61 val_main_v60 val_main_v59 val_main_v58 val_main_v57 val_main_cst_10 val_main_v56 val_main_v55 val_main_v54 val_main_cst_9 val_main_v53 val_main_cst_8 val_main_v52 val_main_v51 val_main_v50 val_main_cst_7 val_main_v49 val_main_v48 val_main_v47 val_main_v46 val_main_v45 val_main_c_6 val_main_v44 val_main_v43 val_main_c_5
  try rw [toBuf_main_v85]
  try rw [ofBuf_main_v85]
  try rw [toBuf_main_v84]
  try rw [ofBuf_main_v84]
  try rw [toBuf_main_call1_v0]
  try rw [ofBuf_main_call1_v0]
  try rw [toBuf_main_call1_cst]
  try rw [ofBuf_main_call1_cst]
  try (with_reducible rfl)

set_option maxHeartbeats 4000000 in
theorem keep2_1 (W : Valuation τ sig (Elt Ideal)) : after (((ops (F := Ideal)).drop 52).take 52) (after ((ops (F := Ideal)).take 52) W) (Proc.devRef .tc main_arg1) = W (Proc.devRef .tc main_arg1) := by
  have h := keep1_1 W
  generalize after ((ops (F := Ideal)).take 52) W = W1 at h ⊢
  simp only [ops, List.take_succ_cons, List.take_zero, List.drop_succ_cons, List.drop_zero]
  after_results_simp
  exact h
set_option maxHeartbeats 4000000 in
theorem keep2_2 (W : Valuation τ sig (Elt Ideal)) : after (((ops (F := Ideal)).drop 52).take 52) (after ((ops (F := Ideal)).take 52) W) (Proc.devRef .tc main_arg2) = W (Proc.devRef .tc main_arg2) := by
  have h := keep1_2 W
  generalize after ((ops (F := Ideal)).take 52) W = W1 at h ⊢
  simp only [ops, List.take_succ_cons, List.take_zero, List.drop_succ_cons, List.drop_zero]
  after_results_simp
  exact h
set_option maxHeartbeats 4000000 in
theorem keep2_17 (W : Valuation τ sig (Elt Ideal)) : after (((ops (F := Ideal)).drop 52).take 52) (after ((ops (F := Ideal)).take 52) W) (Proc.devRef .tc main_arg17) = W (Proc.devRef .tc main_arg17) := by
  have h := keep1_17 W
  generalize after ((ops (F := Ideal)).take 52) W = W1 at h ⊢
  simp only [ops, List.take_succ_cons, List.take_zero, List.drop_succ_cons, List.drop_zero]
  after_results_simp
  exact h
set_option maxHeartbeats 4000000 in
theorem keep2_18 (W : Valuation τ sig (Elt Ideal)) : after (((ops (F := Ideal)).drop 52).take 52) (after ((ops (F := Ideal)).take 52) W) (Proc.devRef .tc main_arg18) = W (Proc.devRef .tc main_arg18) := by
  have h := keep1_18 W
  generalize after ((ops (F := Ideal)).take 52) W = W1 at h ⊢
  simp only [ops, List.take_succ_cons, List.take_zero, List.drop_succ_cons, List.drop_zero]
  after_results_simp
  exact h
set_option maxHeartbeats 4000000 in
theorem keep2_19 (W : Valuation τ sig (Elt Ideal)) : after (((ops (F := Ideal)).drop 52).take 52) (after ((ops (F := Ideal)).take 52) W) (Proc.devRef .tc main_arg19) = W (Proc.devRef .tc main_arg19) := by
  have h := keep1_19 W
  generalize after ((ops (F := Ideal)).take 52) W = W1 at h ⊢
  simp only [ops, List.take_succ_cons, List.take_zero, List.drop_succ_cons, List.drop_zero]
  after_results_simp
  exact h

/-! ## The third stretch -/

set_option maxHeartbeats 4000000 in
theorem layer3 (W : Valuation τ sig (Elt Ideal)) :
    after (((ops (F := Ideal)).drop 52).drop 52) (after (((ops (F := Ideal)).drop 52).take 52) (after ((ops (F := Ideal)).take 52) W)) (Proc.devRef .tc main_v113) = val_main_v113 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  have h85 := layer2 W
  have h1 := keep2_1 W
  have h2 := keep2_2 W
  have h17 := keep2_17 W
  have h18 := keep2_18 W
  have h19 := keep2_19 W
  generalize after (((ops (F := Ideal)).drop 52).take 52) (after ((ops (F := Ideal)).take 52) W) = W2 at h85 h1 h2 h17 h18 h19 ⊢
  simp only [ops, List.take_succ_cons, List.take_zero, List.drop_succ_cons, List.drop_zero]
  after_results_simp
  rw [h85, h1, h2, h17, h18, h19]
  unfold val_main_v113 val_main_call2_v10 val_main_call2_v9 val_main_call2_v8 val_main_call2_v7 val_main_call2_cst_1 val_main_call2_v6 val_main_call2_v5 val_main_call2_v4 val_main_call2_v3 val_main_call2_v2 val_main_call2_v1 val_main_call2_cst_0 val_main_call2_v0 val_main_call2_cst val_main_v112 val_main_v111 val_main_v110 val_main_v109 val_main_v108 val_main_v107 val_main_v106 val_main_v105 val_main_v104 val_main_v103 val_main_v102 val_main_v101 val_main_v100 val_main_cst_17 val_main_v99 val_main_v98 val_main_v97 val_main_cst_16 val_main_v96 val_main_cst_15 val_main_v95 val_main_v94 val_main_v93 val_main_cst_14 val_main_v92 val_main_v91 val_main_v90 val_main_v89 val_main_v88 val_main_c_13 val_main_v87 val_main_v86 val_main_c_12
  try rw [toBuf_main_v112]
  try rw [ofBuf_main_v112]
  try rw [toBuf_main_v113]
  try rw [ofBuf_main_v113]
  try rw [toBuf_main_call2_cst]
  try rw [ofBuf_main_call2_cst]
  try rw [toBuf_main_call2_v0]
  try rw [ofBuf_main_call2_v0]
  try rw [toBuf_main_call2_cst_0]
  try rw [ofBuf_main_call2_cst_0]
  try rw [toBuf_main_call2_v1]
  try rw [ofBuf_main_call2_v1]
  try rw [toBuf_main_call2_v2]
  try rw [ofBuf_main_call2_v2]
  try rw [toBuf_main_call2_v3]
  try rw [ofBuf_main_call2_v3]
  try rw [toBuf_main_call2_v4]
  try rw [ofBuf_main_call2_v4]
  try rw [toBuf_main_call2_v5]
  try rw [ofBuf_main_call2_v5]
  try rw [toBuf_main_call2_v6]
  try rw [ofBuf_main_call2_v6]
  try rw [toBuf_main_call2_cst_1]
  try rw [ofBuf_main_call2_cst_1]
  try rw [toBuf_main_call2_v7]
  try rw [ofBuf_main_call2_v7]
  try rw [toBuf_main_call2_v8]
  try rw [ofBuf_main_call2_v8]
  try rw [toBuf_main_call2_v9]
  try rw [ofBuf_main_call2_v9]
  try rw [toBuf_main_call2_v10]
  try rw [ofBuf_main_call2_v10]
  try (with_reducible rfl)

/-- THE REFERENCE'S VALUE: its result buffer ends at the last stage function of the launch contents of the twenty
    arguments. -/
theorem result (m : (ℓ : Loc nD τ sig) → Buf (Elt Ideal) ℓ) (c : Dev nD) :
    res_main_v113 (F := Ideal) m c = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold res_main_v113
  rw [after_ops]
  exact layer3 (launchContents m c)

end Cert.Sage.RefEval

end
-- ==== Proof.Bridge.lean ====
/-
  The two programs compute one function.

  Written as a function of the twenty argument arrays, the network is
      h1 = hidden (aggregate x) x,   h2 = hidden (aggregate h1) h1,   out = classify (aggregate h2) h2,
  each layer with its own weights and per-feature vectors.  The reference's last stage is this function: its three
  aggregate stages are the divided form of the aggregate, which is the multiplied form; its layers add the bias before
  the self term, which is the same sum.  The kernel's result is this function of its launch memory.  From memories that
  agree on the arguments the two result buffers are therefore equal.
-/
import proofs.«140391_j1838246003329_1_alg».proof.Proof.RefValue
import proofs.«140391_j1838246003329_1_alg».proof.Proof.RefEval
import proofs.«140391_j1838246003329_1_alg».proof.Proof.Agg
import proofs.«140391_j1838246003329_1_alg».proof.Proof.KHost

set_option maxRecDepth 16384

noncomputable section

namespace Cert.Sage.Bridge

open Cert.ReferenceIdeal Cert.ReferenceIdeal.ReadP Cert.Sage
open Idealize.ShloMosaic Idealize.SL.Sem

/-- The reference's first aggregate stage is the aggregate of the launch features. -/
theorem agg1 (x0 : (⟨S100000x128, .f32⟩ : BufTy).Contents (Elt Ideal)) (x1 x2 : (⟨S1600000, .i32⟩ : BufTy).Contents (Elt Ideal)) :
    val_main_v18 (F := Ideal) x0 x1 x2 = Agg.aggR x0 x1 x2 := by
  unfold val_main_v18 val_main_v17 val_main_v16 val_main_v15 val_main_v14 val_main_cst_3 val_main_v13 val_main_v12 val_main_v11 val_main_cst_2 val_main_v10 val_main_cst_1 val_main_v9 val_main_v8 val_main_v7 val_main_cst val_main_v6 val_main_v5 val_main_v4 val_main_v3 val_main_v2 val_main_c_0 val_main_v1 val_main_v0 val_main_c Agg.aggR Agg.segsum Agg.clampDeg Agg.wrap
  rfl

/-- Its second is the aggregate of the first hidden layer. -/
theorem agg2 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 x6 x7 x8 x9 : (⟨S128, .f32⟩ : BufTy).Contents (Elt Ideal)) :
    val_main_v61 (F := Ideal) x0 x1 x2 x3 x4 x5 x6 x7 x8 x9 = Agg.aggR (val_main_v42 (F := Ideal) x0 x1 x2 x3 x4 x5 x6 x7 x8 x9) x1 x2 := by
  unfold val_main_v61 val_main_v60 val_main_v59 val_main_v58 val_main_v57 val_main_cst_10 val_main_v56 val_main_v55 val_main_v54 val_main_cst_9 val_main_v53 val_main_cst_8 val_main_v52 val_main_v51 val_main_v50 val_main_cst_7 val_main_v49 val_main_v48 val_main_v47 val_main_v46 val_main_v45 val_main_c_6 val_main_v44 val_main_v43 val_main_c_5 Agg.aggR Agg.segsum Agg.clampDeg Agg.wrap
  rfl

/-- Its third is the aggregate of the second hidden layer. -/
theorem agg3 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 x6 x7 x8 x9 : (⟨S128, .f32⟩ : BufTy).Contents (Elt Ideal)) (x10 x11 : (⟨S128x128, .f32⟩ : BufTy).Contents (Elt Ideal)) (x12 x13 x14 x15 x16 : (⟨S128, .f32⟩ : BufTy).Contents (Elt Ideal)) :
    val_main_v104 (F := Ideal) x0 x1 x2 x3 x4 x5 x6 x7 x8 x9 x10 x11 x12 x13 x14 x15 x16 = Agg.aggR (val_main_v85 (F := Ideal) x0 x1 x2 x3 x4 x5 x6 x7 x8 x9 x10 x11 x12 x13 x14 x15 x16) x1 x2 := by
  unfold val_main_v104 val_main_v103 val_main_v102 val_main_v101 val_main_v100 val_main_cst_17 val_main_v99 val_main_v98 val_main_v97 val_main_cst_16 val_main_v96 val_main_cst_15 val_main_v95 val_main_v94 val_main_v93 val_main_cst_14 val_main_v92 val_main_v91 val_main_v90 val_main_v89 val_main_v88 val_main_c_13 val_main_v87 val_main_v86 val_main_c_12 Agg.aggR Agg.segsum Agg.clampDeg Agg.wrap
  rfl

/-- The first hidden layer as a function of the arrays. -/
def h1 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 x6 x7 x8 x9 : (⟨S128, .f32⟩ : BufTy).Contents (Elt Ideal)) : Agg.Feat :=
  hidden (Agg.aggK x0 x1 x2) x0 x3 x4 x5 x6 x7 x8 x9

/-- The second hidden layer. -/
def h2 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 x6 x7 x8 x9 : (⟨S128, .f32⟩ : BufTy).Contents (Elt Ideal)) (x10 x11 : (⟨S128x128, .f32⟩ : BufTy).Contents (Elt Ideal)) (x12 x13 x14 x15 x16 : (⟨S128, .f32⟩ : BufTy).Contents (Elt Ideal)) : Agg.Feat :=
  hidden (Agg.aggK (h1 x0 x1 x2 x3 x4 x5 x6 x7 x8 x9) x1 x2) (h1 x0 x1 x2 x3 x4 x5 x6 x7 x8 x9) x10 x11 x12 x13 x14 x15 x16

/-- The network. -/
def net (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 x6 x7 x8 x9 : (⟨S128, .f32⟩ : BufTy).Contents (Elt Ideal)) (x10 x11 : (⟨S128x128, .f32⟩ : BufTy).Contents (Elt Ideal)) (x12 x13 x14 x15 x16 : (⟨S128, .f32⟩ : BufTy).Contents (Elt Ideal)) (x17 x18 : (⟨S64x128, .f32⟩ : BufTy).Contents (Elt Ideal)) (x19 : (⟨S64, .f32⟩ : BufTy).Contents (Elt Ideal)) : (⟨S100000x64, .f32⟩ : BufTy).Contents (Elt Ideal) :=
  classify (Agg.aggK (h2 x0 x1 x2 x3 x4 x5 x6 x7 x8 x9 x10 x11 x12 x13 x14 x15 x16) x1 x2) (h2 x0 x1 x2 x3 x4 x5 x6 x7 x8 x9 x10 x11 x12 x13 x14 x15 x16) x17 x18 x19

/-- The reference's last stage is the network. -/
theorem ref_net (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 x6 x7 x8 x9 : (⟨S128, .f32⟩ : BufTy).Contents (Elt Ideal)) (x10 x11 : (⟨S128x128, .f32⟩ : BufTy).Contents (Elt Ideal)) (x12 x13 x14 x15 x16 : (⟨S128, .f32⟩ : BufTy).Contents (Elt Ideal)) (x17 x18 : (⟨S64x128, .f32⟩ : BufTy).Contents (Elt Ideal)) (x19 : (⟨S64, .f32⟩ : BufTy).Contents (Elt Ideal)) : val_main_v113 (F := Ideal) x0 x1 x2 x3 x4 x5 x6 x7 x8 x9 x10 x11 x12 x13 x14 x15 x16 x17 x18 x19 = net x0 x1 x2 x3 x4 x5 x6 x7 x8 x9 x10 x11 x12 x13 x14 x15 x16 x17 x18 x19 := by
  have e1 : val_main_v42 (F := Ideal) x0 x1 x2 x3 x4 x5 x6 x7 x8 x9 = h1 x0 x1 x2 x3 x4 x5 x6 x7 x8 x9 := by
    rw [Ref.layer1, agg1, ← Agg.aggK_eq_aggR]; rfl
  have e2 : val_main_v85 (F := Ideal) x0 x1 x2 x3 x4 x5 x6 x7 x8 x9 x10 x11 x12 x13 x14 x15 x16 = h2 x0 x1 x2 x3 x4 x5 x6 x7 x8 x9 x10 x11 x12 x13 x14 x15 x16 := by
    rw [Ref.layer2, agg2, e1, ← Agg.aggK_eq_aggR]; rfl
  rw [Ref.layer3, agg3, e2, ← Agg.aggK_eq_aggR]; rfl

/-- The kernel's result is the network of its launch memory. -/
theorem kernel_net (m : (ℓ : Loc Cert.KernelIdeal.nD Cert.KernelIdeal.τ Cert.KernelIdeal.sig) → Buf (Elt Ideal) ℓ) (c : Dev Cert.KernelIdeal.nD) :
    KHost.OUT m c = net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) := rfl

/-- From memories that agree on the twenty arguments, the reference's result buffer holds what the kernel's does. -/
theorem ref_result (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.ValueP.res_main_v113 (F := Ideal) m' c = KHost.OUT m c := by
  obtain ⟨g0, g1, g2, g3, g4, g5, g6, g7, g8, g9, g10, g11, g12, g13, g14, g15, g16, g17, g18, g19⟩ := hagree
  rw [RefEval.result, ref_net, kernel_net, g0, g1, g2, g3, g4, g5, g6, g7, g8, g9, g10, g11, g12, g13, g14, g15, g16, g17, g18, g19]

end Cert.Sage.Bridge

end
-- ==== Proof.lean ====
/-
  A three-layer graph network — each node's features averaged over its in-neighbours, two hidden layers (two matrix
  products, bias, normalisation by running statistics, rectifier) and a log-softmax classifier over 64 classes — as
  three tiled kernels with host gathers and scatters between them, against the same network written in plain array
  operations.

  On the extended reals the two programs compute one function of their twenty argument arrays.  What differs in their
  text does not differ in value: a change of float format is the identity; a block matrix product into a zero
  accumulator is the whole product's rows; the kernel's host side multiplies the neighbour sum by 1 / max(degree, 1)
  where the reference divides by max(degree, 1), and s · (1/d) = s / d for every extended real s as soon as d ≠ 0,
  which d ≥ 1 is; the reference adds the bias before the self term, and addition of extended reals is commutative and
  associative; the reference takes one more maximum with −∞, which changes nothing.  No step needs a finite input, so
  the precondition is never opened.

  The idealized kernel's run ends with its result array at the network of its launch memory (KRun, KArr, KBody, KHost);
  the reference's run ends with its result at the last of its stage functions of its launch memory (RefRun, RefEval),
  which is the network (RefValue, Agg, Bridge).  The three frames are the programs' runs with the result dropped; the
  idealization rewrote no operation.
-/
import proofs.«140391_j1838246003329_1_alg».proof.Defs
import proofs.«140391_j1838246003329_1_alg».proof.Proof.Gen.Kernel
import proofs.«140391_j1838246003329_1_alg».proof.Proof.Gen.Kernel.Skeleton
import proofs.«140391_j1838246003329_1_alg».proof.Proof.Gen.Kernel.Launch
import proofs.«140391_j1838246003329_1_alg».proof.Proof.Gen.Kernel.Points
import proofs.«140391_j1838246003329_1_alg».proof.Proof.Gen.Kernel.Frame
import proofs.«140391_j1838246003329_1_alg».proof.Proof.Gen.KernelIdeal
import proofs.«140391_j1838246003329_1_alg».proof.Proof.Gen.KernelIdeal.Skeleton
import proofs.«140391_j1838246003329_1_alg».proof.Proof.Gen.KernelIdeal.Launch
import proofs.«140391_j1838246003329_1_alg».proof.Proof.Gen.KernelIdeal.Points
import proofs.«140391_j1838246003329_1_alg».proof.Proof.Gen.KernelIdeal.Frame
import proofs.«140391_j1838246003329_1_alg».proof.Proof.Gen.ReferenceIdeal
import proofs.«140391_j1838246003329_1_alg».proof.Proof.Gen.Pre_finite_inputs
import proofs.«140391_j1838246003329_1_alg».proof.Proof.KRun
import proofs.«140391_j1838246003329_1_alg».proof.Proof.KHost
import proofs.«140391_j1838246003329_1_alg».proof.Proof.RefRun
import proofs.«140391_j1838246003329_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs run, and both result buffers end at the network
    of the kernel's launch memory. -/
theorem algebraic : Cert.algebraic_KernelIdeal_ReferenceIdeal := by
  intro m ρ m' ρ' _ hagree
  refine ⟨fun c => Cert.Sage.KHost.OUT m c, ?_, ?_⟩
  · exact (θ_run Cert.KernelIdeal.defs _ _).mono
      (fun r h c => ⟨(h c).1.trans (Cert.Sage.KHost.result m ρ c), (h c).2⟩)
      (Cert.Sage.KRun.run_result (F := Ideal) m ρ)
  · exact (θ_run Cert.ReferenceIdeal.defs _ _).mono
      (fun r h c => ⟨(h c).1.trans (Cert.Sage.Bridge.ref_result m m' c (hagree c)), (h c).2⟩)
      (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
